-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256x1 : Shape := ⟨2, ![256, 1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg5 : FVec F S256x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S800000 .f32) (main_arg3 : FVec F S256x256 .f32) (main_arg4 : FVec F S256x1 .f32) (main_arg5 : FVec F S256x1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256x1 : Shape := ⟨2, ![256, 1]⟩
abbrev S1x800000 : Shape := ⟨2, ![1, 800000]⟩
abbrev S50000x1 : Shape := ⟨2, ![50000, 1]⟩
abbrev S2000x256 : Shape := ⟨2, ![2000, 256]⟩
abbrev S2000x1 : Shape := ⟨2, ![2000, 1]⟩
abbrev S_ : Shape := ⟨0, ![]⟩
abbrev S800000x1 : Shape := ⟨2, ![800000, 1]⟩
abbrev S800000x256 : Shape := ⟨2, ![800000, 256]⟩
abbrev S800000x2 : Shape := ⟨2, ![800000, 2]⟩
abbrev S50000 : Shape := ⟨1, ![50000]⟩

abbrev nBuf : Space → Nat
  | .hbm => 49
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x256, .f32⟩
  | .hbm, ⟨4, _⟩ => ⟨S256x1, .f32⟩
  | .hbm, ⟨5, _⟩ => ⟨S256x1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S800000x1, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x1, .i32⟩
  | .hbm, ⟨40, _⟩ => ⟨S800000x2, .i32⟩
  | .hbm, ⟨41, _⟩ => ⟨S800000, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S50000x1, .f32⟩
  | .hbm, ⟨48, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x1, .f32⟩
  | .local _ .vmem, ⟨4, _⟩ => ⟨S2000x256, .f32⟩
  | .local _ .vmem, ⟨5, _⟩ => ⟨S2000x256, .f32⟩
  | .local _ .vmem, ⟨6, _⟩ => ⟨S2000x1, .f32⟩
  | .local _ .vmem, ⟨7, _⟩ => ⟨S2000x1, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S256x1, .f32⟩
  | .local _ .vmem, ⟨13, _⟩ => ⟨S2000x256, .f32⟩
  | .local _ .vmem, ⟨14, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  broadcasts_S2000x1_S2000x256 : S2000x1.Broadcasts S2000x256
  inb_S2000x1_S2000x1_0_0 : ∀ a, (![0, 0] : Fin 2 → Nat) a + S2000x1.size a ≤ S2000x1.size a
  h_S2000x1 : 0 < S2000x1.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  concatenates_S800000x1_S800000x1_S800000x2_d1 : Shape.Concatenates [S800000x1, S800000x1] S800000x2 1
  bcast_S_S50000 : S_.BroadcastsInDim S50000 (![] : Fin 0 → Fin S50000.rank)
  bcast_S50000_S50000x1_0 : S50000.BroadcastsInDim S50000x1 (![0] : Fin 1 → Fin S50000x1.rank)
  shapeCasts_S2000x256_S2000x256 : S2000x256.ShapeCasts S2000x256
  shapeCasts_S2000x1_S2000x1 : S2000x1.ShapeCasts S2000x1
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  gather_S50000x1_S800000x2_S800000_n_01_n_n_01_1_11_wf : GatherDims.WF S50000x1 S800000x2 S800000 [] [0, 1] [] [0, 1] [] 1 ![1, 1]
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x1_S800000x2_S800000_n_01_n_n_01_1_11 : GatherDims S50000x1 S800000x2 S800000 where
  offsetDims := []
  collapsedSliceDims := [0, 1]
  operandBatchingDims := []
  startIndicesBatchingDims := []
  startIndexMap := [0, 1]
  indexVectorDim := 1
  sliceSizes := ![1, 1]
  wf := gather_S50000x1_S800000x2_S800000_n_01_n_n_01_1_11_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S2000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x256 : Shape := ⟨2, ![256, 256]⟩
abbrev S256x1 : Shape := ⟨2, ![256, 1]⟩
abbrev S1x800000 : Shape := ⟨2, ![1, 800000]⟩
abbrev S50000x1 : Shape := ⟨2, ![50000, 1]⟩
abbrev S_ : Shape := ⟨0, ![]⟩
abbrev S800000x1 : Shape := ⟨2, ![800000, 1]⟩
abbrev S800000x256 : Shape := ⟨2, ![800000, 256]⟩
abbrev S800000x2 : Shape := ⟨2, ![800000, 2]⟩
abbrev S50000 : Shape := ⟨1, ![50000]⟩

abbrev nBuf : Space → Nat
  | .hbm => 99
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x256, .f32⟩
  | .hbm, ⟨4, _⟩ => ⟨S256x1, .f32⟩
  | .hbm, ⟨5, _⟩ => ⟨S256x1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000x1, .f32⟩
  | .hbm, ⟨12, _⟩ => ⟨S50000x1, .f32⟩
  | .hbm, ⟨13, _⟩ => ⟨S50000x1, .f32⟩
  | .hbm, ⟨14, _⟩ => ⟨S_, .f32⟩
  | .hbm, ⟨15, _⟩ => ⟨S50000x1, .f32⟩
  | .hbm, ⟨16, _⟩ => ⟨S50000x1, .f32⟩
  | .hbm, ⟨17, _⟩ => ⟨S_, .f32⟩
  | .hbm, ⟨18, _⟩ => ⟨S50000x1, .f32⟩
  | .hbm, ⟨19, _⟩ => ⟨S50000x1, .f32⟩
  | .hbm, ⟨20, _⟩ => ⟨S50000x256, .f32⟩
  | .hbm, ⟨21, _⟩ => ⟨S50000x256, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x256, .f32⟩
  | .hbm, ⟨31, _⟩ => ⟨S800000x1, .f32⟩
  | .hbm, ⟨32, _⟩ => ⟨S800000x256, .f32⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x1, .i32⟩
  | .hbm, ⟨50, _⟩ => ⟨S800000x2, .i32⟩
  | .hbm, ⟨51, _⟩ => ⟨S800000, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S50000x1, .f32⟩
  | .hbm, ⟨58, _⟩ => ⟨S50000x256, .f32⟩
  | .hbm, ⟨59, _⟩ => ⟨S50000x256, .f32⟩
  | .hbm, ⟨60, _⟩ => ⟨S50000x1, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x1, .f32⟩
  | .hbm, ⟨65, _⟩ => ⟨S50000x1, .f32⟩
  | .hbm, ⟨66, _⟩ => ⟨S50000x1, .i1⟩
  | .hbm, ⟨67, _⟩ => ⟨S50000x1, .f32⟩
  | .hbm, ⟨68, _⟩ => ⟨S50000x1, .f32⟩
  | .hbm, ⟨69, _⟩ => ⟨S50000x1, .f32⟩
  | .hbm, ⟨70, _⟩ => ⟨S50000x1, .f32⟩
  | .hbm, ⟨71, _⟩ => ⟨S50000x1, .f32⟩
  | .hbm, ⟨72, _⟩ => ⟨S50000x1, .f32⟩
  | .hbm, ⟨73, _⟩ => ⟨S50000x1, .f32⟩
  | .hbm, ⟨74, _⟩ => ⟨S50000x1, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S_, .f32⟩
  | .hbm, ⟨85, _⟩ => ⟨S50000x256, .f32⟩
  | .hbm, ⟨86, _⟩ => ⟨S50000x256, .i1⟩
  | .hbm, ⟨87, _⟩ => ⟨S_, .f32⟩
  | .hbm, ⟨88, _⟩ => ⟨S50000x256, .f32⟩
  | .hbm, ⟨89, _⟩ => ⟨S50000x256, .i1⟩
  | .hbm, ⟨90, _⟩ => ⟨S_, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x256, .f32⟩
  | .hbm, ⟨97, _⟩ => ⟨S50000x256, .f32⟩
  | .hbm, ⟨98, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_cst_1 : Ref sig .tc := ⟨.hbm, 90, rfl⟩
abbrev main_call1_call0_v0 : Ref sig .tc := ⟨.hbm, 91, rfl⟩
abbrev main_call1_call0_v1 : Ref sig .tc := ⟨.hbm, 92, rfl⟩
abbrev main_call1_v4 : Ref sig .tc := ⟨.hbm, 93, rfl⟩
abbrev main_call1_v5 : Ref sig .tc := ⟨.hbm, 94, rfl⟩
abbrev main_call1_cst_2 : Ref sig .tc := ⟨.hbm, 95, rfl⟩
abbrev main_call1_v6 : Ref sig .tc := ⟨.hbm, 96, rfl⟩
abbrev main_call1_v7 : Ref sig .tc := ⟨.hbm, 97, rfl⟩
abbrev main_v54 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  concatenates_S800000x1_S800000x1_S800000x2_d1 : Shape.Concatenates [S800000x1, S800000x1] S800000x2 1
  bcast_S_S50000 : S_.BroadcastsInDim S50000 (![] : Fin 0 → Fin S50000.rank)
  bcast_S50000_S50000x1_0 : S50000.BroadcastsInDim S50000x1 (![0] : Fin 1 → Fin S50000x1.rank)
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  gather_S50000x1_S800000x2_S800000_n_01_n_n_01_1_11_wf : GatherDims.WF S50000x1 S800000x2 S800000 [] [0, 1] [] [0, 1] [] 1 ![1, 1]
  scatter_S50000_S800000x1_S800000_n_0_0_1_wf : ScatterDims.WF S50000 S800000x1 S800000 [] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x1_S800000x2_S800000_n_01_n_n_01_1_11 : GatherDims S50000x1 S800000x2 S800000 where
  offsetDims := []
  collapsedSliceDims := [0, 1]
  operandBatchingDims := []
  startIndicesBatchingDims := []
  startIndexMap := [0, 1]
  indexVectorDim := 1
  sliceSizes := ![1, 1]
  wf := gather_S50000x1_S800000x2_S800000_n_01_n_n_01_1_11_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KRun.lean ====
/-
  The idealized kernel program's run with its result named. The program is two kernel launches among stretches of
  host operations; every buffer's contents at each boundary between them is a fold from the launch memory, and the
  result buffer ends at the last boundary's contents: what the second launch's write-backs leave in its output array.
  The argument arrays end as launched.
-/
import proofs.«101418_j21045339750531_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents `W4` at the result reference, and each argument array what it held at launch. -/
theorem run : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KRun

end
-- ==== Proof.Spec.lean ====
/-
  The reference computation, stage by stage, as whole-array functions of its arguments.

  A graph attention layer over N = 50000 nodes with F = 256 features and E = 800000 weighted edges (row r_e, column
  c_e, weight w_e):
    support = x · W                                   (N × F)
    gate    = 1 / (1 + exp (-(support · a2)))         (N × 1)
    gated   = gate ⊙ support                          (N × F, the gate broadcast along the features)
    raw     = Σ_{e : r_e = i} w_e · gated[c_e, :]     (scatter-add of gathered rows)
    norm    = Σ_{e : r_e = i} w_e · gate[c_e]         (the same aggregation of the gate alone), as a column
    out     = raw / norm,  l = softplus (out · a1),  p = max(out, 0) + l ⊙ min(out, 0),  result = elu p.
  Each definition below is the composition of host operations the reference program performs for that stage, in the
  program's own order; `out` composes them.
-/
import proofs.«101418_j21045339750531_1_alg».proof.ReferenceIdeal
import proofs.«101418_j21045339750531_1_alg».proof.Proof.Gen.ReferenceIdeal

noncomputable section

namespace Cert.ReferenceIdeal.Spec

open Cert.ReferenceIdeal Cert.ReferenceIdeal.Gen Idealize.ShloMosaic

variable {F : FTy → Type} [FloatOps F]

/-- The edges' row indices: row 0 of the index pair array, as a vector. -/
def rowsOf (e : IVec S2x800000 32) : IVec S800000 32 :=
  shapeCast S800000 (extractStridedSlice S1x800000 ![0, 0] e slices_S2x800000_S1x800000_0_0) shapeCasts_S1x800000_S800000

/-- The edges' column indices: row 1 of the index pair array, as a vector. -/
def colsOf (e : IVec S2x800000 32) : IVec S800000 32 :=
  shapeCast S800000 (extractStridedSlice S1x800000 ![1, 0] e slices_S2x800000_S1x800000_1_0) shapeCasts_S1x800000_S800000

/-- `x · W`. -/
def support (x : FVec F S50000x256 .f32) (W : FVec F S256x256 .f32) : FVec F S50000x256 .f32 :=
  Host.dotGeneral dot_S50000x256_S256x256_S50000x256_1_0_0_1_n_n none x W

/-- The per-node gate `1 / (1 + exp (-(support · a2)))`, a column. -/
def gate (x : FVec F S50000x256 .f32) (W : FVec F S256x256 .f32) (a2 : FVec F S256x1 .f32) : FVec F S50000x1 .f32 :=
  Host.divf (broadcastInDim S50000x1 ![] bcast_S_S50000x1 (constant (F := F) S_ .f32 0x3F800000#32))
    (addf (broadcastInDim S50000x1 ![] bcast_S_S50000x1 (constant (F := F) S_ .f32 0x3F800000#32))
      (Host.exp (Host.negf (Host.dotGeneral dot_S50000x256_S256x1_S50000x1_1_0_0_1_n_n none (support x W) a2))))

/-- The gated features `gate ⊙ support`. -/
def gated (x : FVec F S50000x256 .f32) (W : FVec F S256x256 .f32) (a2 : FVec F S256x1 .f32) : FVec F S50000x256 .f32 :=
  mulf (broadcastInDim S50000x256 ![0, 1] bcast_S50000x1_S50000x256_0_1 (gate x W a2)) (support x W)

/-- A column index below zero is counted from the end (50000 added); others are kept. -/
def wrapped (cols : IVec S800000 32) : IVec S800000 32 :=
  select (cmpi .slt cols (broadcastInDim S800000 ![] bcast_S_S800000 (constantI S_ 32 0#32)))
    (addi cols (broadcastInDim S800000 ![] bcast_S_S800000 (constantI S_ 32 50000#32))) cols

/-- The weighted aggregation of gathered feature rows: row i receives the sum over the edges of row index i of the
    edge's weight times the feature row at the edge's column index. -/
def raw (g : FVec F S50000x256 .f32) (rows cols : IVec S800000 32) (w : FVec F S800000 .f32) : FVec F S50000x256 .f32 :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 rows)
    (mulf (Host.gather gather_S50000x256_S800000x1_S800000x256_1_0_n_n_0_1_1256 g
        (broadcastInDim S800000x1 ![0] bcast_S800000_S800000x1_0 (wrapped cols)))
      (broadcastInDim S800000x256 ![0, 1] bcast_S800000x1_S800000x256_0_1
        (broadcastInDim S800000x1 ![0] bcast_S800000_S800000x1_0 w)))

/-- The same aggregation of the gate column alone, as a column. -/
def norm (r : FVec F S50000x1 .f32) (rows cols : IVec S800000 32) (w : FVec F S800000 .f32) : FVec F S50000x1 .f32 :=
  broadcastInDim S50000x1 ![0] bcast_S50000_S50000x1_0
    (Host.scatterAdd scatter_S50000_S800000x1_S800000_n_0_0_1
      (broadcastInDim S50000 ![] bcast_S_S50000 (constant (F := F) S_ .f32 0x00000000#32))
      (broadcastInDim S800000x1 ![0] bcast_S800000_S800000x1_0 rows)
      (mulf w (Host.gather gather_S50000x1_S800000x2_S800000_n_01_n_n_01_1_11 r
        (concatenate S800000x2 1
          [⟨S800000x1, broadcastInDim S800000x1 ![0] bcast_S800000_S800000x1_0 (wrapped cols)⟩,
           ⟨S800000x1, broadcastInDim S800000x1 ![0] bcast_S800000_S800000x1_0
              (id (broadcastInDim S800000 ![] bcast_S_S800000 (constantI S_ 32 0#32)))⟩]
          concatenates_S800000x1_S800000x1_S800000x2_d1))))

/-- The normalised aggregate `raw / norm`, the column broadcast along the features. -/
def quotient (rw : FVec F S50000x256 .f32) (nm : FVec F S50000x1 .f32) : FVec F S50000x256 .f32 :=
  Host.divf rw (broadcastInDim S50000x256 ![0, 1] bcast_S50000x1_S50000x256_0_1 nm)

/-- `softplus z = max(z, 0) + log1p (exp (-|z - 0|))`, with the source's not-a-number guard `z - 0 ≠ z - 0` selecting
    `z + 0`. -/
def softplus (z : FVec F S50000x1 .f32) : FVec F S50000x1 .f32 :=
  select (cmpf .une (subf z (broadcastInDim S50000x1 ![] bcast_S_S50000x1 (constant (F := F) S_ .f32 0x00000000#32)))
      (subf z (broadcastInDim S50000x1 ![] bcast_S_S50000x1 (constant (F := F) S_ .f32 0x00000000#32))))
    (addf z (broadcastInDim S50000x1 ![] bcast_S_S50000x1 (constant (F := F) S_ .f32 0x00000000#32)))
    (addf (maximumf z (broadcastInDim S50000x1 ![] bcast_S_S50000x1 (constant (F := F) S_ .f32 0x00000000#32)))
      (Host.log1p (Host.exp (Host.negf (Host.absf
        (subf z (broadcastInDim S50000x1 ![] bcast_S_S50000x1 (constant (F := F) S_ .f32 0x00000000#32))))))))

/-- `max(out, 0) + l ⊙ min(out, 0)` with `l = softplus (out · a1)`. -/
def piecewise (o : FVec F S50000x256 .f32) (a1 : FVec F S256x1 .f32) : FVec F S50000x256 .f32 :=
  addf (maximumf o (broadcastInDim S50000x256 ![] bcast_S_S50000x256 (constant (F := F) S_ .f32 0x00000000#32)))
    (mulf (broadcastInDim S50000x256 ![0, 1] bcast_S50000x1_S50000x256_0_1
        (softplus (Host.dotGeneral dot_S50000x256_S256x1_S50000x1_1_0_0_1_n_n none o a1)))
      (minimumf o (broadcastInDim S50000x256 ![] bcast_S_S50000x256 (constant (F := F) S_ .f32 0x00000000#32))))

/-- `elu p = p` where `p > 0`, else `1 · expm1 p'` with `p' = 0` where `p > 0` and `p` elsewhere. -/
def elu (p : FVec F S50000x256 .f32) : FVec F S50000x256 .f32 :=
  select (cmpf .ogt p (broadcastInDim S50000x256 ![] bcast_S_S50000x256 (constant (F := F) S_ .f32 0x00000000#32))) p
    (mulf (broadcastInDim S50000x256 ![] bcast_S_S50000x256 (constant (F := F) S_ .f32 0x3F800000#32))
      (Host.expm1 (select
        (cmpf .ogt p (broadcastInDim S50000x256 ![] bcast_S_S50000x256 (constant (F := F) S_ .f32 0x00000000#32)))
        (broadcastInDim S50000x256 ![] bcast_S_S50000x256 (id (constant (F := F) S_ .f32 0x00000000#32))) p)))

/-- The last stage: from the two aggregates and `a1` to the result. -/
def final (rw : FVec F S50000x256 .f32) (nm : FVec F S50000x1 .f32) (a1 : FVec F S256x1 .f32) : FVec F S50000x256 .f32 :=
  elu (piecewise (quotient rw nm) a1)

/-- The reference's result as a function of its six arguments. -/
def out (x : FVec F S50000x256 .f32) (e : IVec S2x800000 32) (w : FVec F S800000 .f32) (W : FVec F S256x256 .f32)
    (a1 a2 : FVec F S256x1 .f32) : FVec F S50000x256 .f32 :=
  final (raw (gated x W a2) (rowsOf e) (colsOf e) w) (norm (gate x W a2) (rowsOf e) (colsOf e) w) a1

end Cert.ReferenceIdeal.Spec

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.LibDenseLayouts.lean ====
/-
  Small layouts that a row-wise dense layer meets, read at an index given by coordinates, at any extents and any
  element type: a column [a, 1] spread along its unit axis to [a, b]; a single entry [1, 1] spread down a column
  [a, 1]; a column [a, 1] read as the vector [a]; a vector of one entry read as [1, 1].
-/
import Idealize.ShloMosaic.Lib.ValueIdx
import Idealize.ShloMosaic.Lib.Pipeline.Value

namespace Cert.Lib.DenseLayouts

open Idealize.ShloMosaic Idealize.ShloMosaic.ValueIdx

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single entry [1, 1] broadcast down a column [a, 1] reads, at (i, u), that entry. -/
theorem broadcastTo_11_a1_apply {α : Type} {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ => rfl
  | ⟨1, _⟩ => rfl

/-- A column [a, 1] cast to the vector [a] reads, at i, the column's entry i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector of one entry cast to [1, 1] reads, at (u, u'), that entry. -/
theorem shapeCast_1_11_apply {α : Type} (x : (⟨1, ![1]⟩ : Shape).Idx → α)
    (h : (⟨1, ![1]⟩ : Shape).ShapeCasts ⟨2, ![1, 1]⟩) (u u' : Fin 1) :
    shapeCast ⟨2, ![1, 1]⟩ x h (ix2 u u') = x (ix1 (0 : Fin 1)) :=
  shapeCast_apply x h _ _ (by
    have hu : u.val = 0 := by omega
    have hu' : u'.val = 0 := by omega
    rw [Shape.rowMajor_val_two, Shape.rowMajor_val_one]
    show (0 : ℕ) = u.val * 1 + u'.val
    omega)

end Cert.Lib.DenseLayouts
-- ==== Proof.LibIdealSpellings.lean ====
/-
  Spellings that denote one function on the extended reals, and one layout read at an index; all at any extents.

  * the binary32 word of 1.0 is the extended real one, and subtracting from the word of 0.0 is negation;
  * the logistic function is `1 / (1 + exp (-z))` spelt with the literal 1.0;
  * elu spelt `select (p > 0) p (exp p - 1.0)` and spelt `select (p > 0) p (1.0 · (exp (select (p > 0) 0.0 p) - 1))` agree:
    where `p > 0` both are `p`, elsewhere the inner selection is `p` and the literal factor is one;
  * a column [a, 1] broadcast in dimensions [0, 1] to [a, b] reads, at (i, j), the column's entry i.
-/
import Idealize.ShloMosaic.PureOps.Ideal
import Idealize.ShloMosaic.PureOps.Ideal.Laws
import Idealize.ShloMosaic.Lib.ValueIdx
import Idealize.ShloMosaic.Lib.Pipeline.Value

noncomputable section

namespace Cert.Lib.IdealSpellings

open Idealize.ShloMosaic Idealize.ShloMosaic.ValueIdx

/-- The binary32 word of 1.0 denotes the extended real one. -/
theorem ofBits_one : Ideal.ofBits .f32 0x3F800000#32 = 1 := by
  simp [Ideal.ofBits, Ideal.ieee, -EReal.coe_mul]; norm_num

/-- Subtracting from the literal zero is negation. -/
theorem zero_lit_sub (a : EReal) : Ideal.ofBits .f32 0x00000000#32 - a = -a := by
  rw [Ideal.ofBits_zero_f32, zero_sub]

/-- The logistic function is `1 / (1 + exp (-z))` with the ones spelt as the literal 1.0. -/
theorem logistic_lit (z : EReal) :
    Ideal.logistic z = Ideal.div (Ideal.ofBits .f32 0x3F800000#32) (Ideal.ofBits .f32 0x3F800000#32 + Ideal.exp (-z)) := by
  rw [ofBits_one]; rfl

/-- elu's two spellings agree: where `p > 0` both are `p`; elsewhere `exp p - 1` against `1 · (exp p - 1)`. -/
theorem elu_scalar (P : EReal) :
    Scalar.select (Ideal.cmp .ogt P (Ideal.ofBits .f32 0x00000000#32)) P (Ideal.exp P - Ideal.ofBits .f32 0x3F800000#32)
      = Scalar.select (Ideal.cmp .ogt P (Ideal.ofBits .f32 0x00000000#32)) P
          (Ideal.ofBits .f32 0x3F800000#32 * (Ideal.exp (Scalar.select (Ideal.cmp .ogt P (Ideal.ofBits .f32 0x00000000#32))
            (Ideal.ofBits .f32 0x00000000#32) P) - 1)) := by
  rcases BitVec.eq_zero_or_eq_one (Ideal.cmp .ogt P (Ideal.ofBits .f32 0x00000000#32)) with hb | hb
  · rw [hb, select_zero, select_zero, select_zero, ofBits_one, one_mul]
  · rw [hb, select_one, select_one]

/-- A column [a, 1] broadcast in dimensions [0, 1] to [a, b] reads, at (i, j), the column's entry i. -/
theorem bcastInDim_col_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.IdealSpellings

end
-- ==== Proof.Stage1.lean ====
/-
  The first launch against the reference's first stage, one entry at a time.

  A block of 2000 rows of `x` goes through the matrix unit with the whole of `W`; row `p` of the block is row `i` of
  `x`, so entry (p, q) of the block's product is entry (i, q) of `x · W`: both are the sum over l < 256 of
  x(i, l) · W(l, q). The same holds for the second product with the column `a2`, whose left factor is the row just
  computed. The gate is the logistic function of that entry on one side and 1 / (1 + exp (-z)) spelt with the literal
  1.0 on the other: one function on the extended reals. The gated features are the product of the gate, spread along
  the row, with the row of `x · W`.
-/
import proofs.«101418_j21045339750531_1_alg».proof.Proof.Spec
import proofs.«101418_j21045339750531_1_alg».proof.Proof.Gen.KernelIdeal.Skeleton
import proofs.«101418_j21045339750531_1_alg».proof.Proof.LibPlainProduct
import proofs.«101418_j21045339750531_1_alg».proof.Proof.LibDenseLayouts
import proofs.«101418_j21045339750531_1_alg».proof.Proof.LibIdealSpellings
import Idealize.ShloMosaic.Lib.Pipeline.Value

noncomputable section

namespace Cert.Bridge

open Idealize.ShloMosaic Idealize.ShloMosaic.ValueIdx
open Cert.Lib.PlainProduct Cert.Lib.DenseLayouts Cert.Lib.IdealSpellings
open Cert.KernelIdeal.Gen Cert.ReferenceIdeal.Gen
open scoped BigOperators

/-- A plain product's dimension numbers, for any record spelt with them. -/
theorem plainK0 : IsPlain Cert.KernelIdeal.dot_S2000x256_S256x256_S2000x256_1_0_0_1_n_n := ⟨rfl, rfl, rfl, rfl, rfl, rfl⟩
theorem plainK1 : IsPlain Cert.KernelIdeal.dot_S2000x256_S256x1_S2000x1_1_0_0_1_n_n := ⟨rfl, rfl, rfl, rfl, rfl, rfl⟩
theorem plainR0 : IsPlain Cert.ReferenceIdeal.dot_S50000x256_S256x256_S50000x256_1_0_0_1_n_n := ⟨rfl, rfl, rfl, rfl, rfl, rfl⟩
theorem plainR1 : IsPlain Cert.ReferenceIdeal.dot_S50000x256_S256x1_S50000x1_1_0_0_1_n_n := ⟨rfl, rfl, rfl, rfl, rfl, rfl⟩

/-- Entry (p, q) of a row block's product with `W` is entry (i, q) of `x · W` when row p of the block is row i of x. -/
theorem support_entry (X : FVec Ideal Cert.ReferenceIdeal.S50000x256 .f32) (xb : FVec Ideal Cert.KernelIdeal.S2000x256 .f32)
    (W : FVec Ideal Cert.KernelIdeal.S256x256 .f32) (i : Fin 50000) (p : Fin 2000)
    (h : ∀ l : Fin 256, xb (ix2 p l) = X (ix2 i l)) (q : Fin 256) :
    k0_pay1 (F := Ideal) xb W (ix2 p q) = Cert.ReferenceIdeal.Spec.support (F := Ideal) X W (ix2 i q) := by
  unfold k0_pay1 Cert.ReferenceIdeal.Spec.support
  refine (matmul_zero_apply plainK0 rfl rfl none _ _ p q).trans ?_
  refine Eq.trans ?_ (dotGeneral_apply plainR0 rfl rfl none _ X W i q).symm
  exact Finset.sum_congr rfl fun l _ => by rw [truncf_apply, truncf_apply, h l]

/-- The gate's entry for row p of a block is the reference's gate for row i: the second product's entry is the same sum
    (its left factor the row of `x · W` just identified), and the logistic function is `1 / (1 + exp (-z))`. -/
theorem gate_entry (X : FVec Ideal Cert.ReferenceIdeal.S50000x256 .f32) (xb : FVec Ideal Cert.KernelIdeal.S2000x256 .f32)
    (W : FVec Ideal Cert.KernelIdeal.S256x256 .f32) (a2 : FVec Ideal Cert.KernelIdeal.S256x1 .f32) (i : Fin 50000) (p : Fin 2000)
    (h : ∀ l : Fin 256, xb (ix2 p l) = X (ix2 i l)) :
    k0_pay2 (F := Ideal) xb W a2 (ix2 p (0 : Fin 1)) = Cert.ReferenceIdeal.Spec.gate (F := Ideal) X W a2 (ix2 i (0 : Fin 1)) := by
  have hz : matmul Cert.KernelIdeal.dot_S2000x256_S256x1_S2000x1_1_0_0_1_n_n none
        (truncf .bf16 (k0_pay1 (F := Ideal) xb W) (by decide)) (truncf .bf16 a2 (by decide))
        (constant Cert.KernelIdeal.S2000x1 .f32 0x00000000#32) (ix2 p (0 : Fin 1))
      = Host.dotGeneral Cert.ReferenceIdeal.dot_S50000x256_S256x1_S50000x1_1_0_0_1_n_n none
        (Cert.ReferenceIdeal.Spec.support (F := Ideal) X W) a2 (ix2 i (0 : Fin 1)) := by
    refine (matmul_zero_apply plainK1 rfl rfl none _ _ p 0).trans ?_
    refine Eq.trans ?_ (dotGeneral_apply plainR1 rfl rfl none _ _ a2 i 0).symm
    exact Finset.sum_congr rfl fun k _ => by rw [truncf_apply, truncf_apply, support_entry X xb W i p h k]
  unfold k0_pay2 Cert.ReferenceIdeal.Spec.gate
  show Ideal.logistic (matmul Cert.KernelIdeal.dot_S2000x256_S256x1_S2000x1_1_0_0_1_n_n none
        (truncf .bf16 (k0_pay1 (F := Ideal) xb W) _) (truncf .bf16 a2 _)
        (constant Cert.KernelIdeal.S2000x1 .f32 0x00000000#32) (ix2 p (0 : Fin 1)))
    = Ideal.div (Ideal.ofBits .f32 0x3F800000#32) (Ideal.ofBits .f32 0x3F800000#32 + Ideal.exp (-(Host.dotGeneral
        Cert.ReferenceIdeal.dot_S50000x256_S256x1_S50000x1_1_0_0_1_n_n none (Cert.ReferenceIdeal.Spec.support (F := Ideal) X W) a2
        (ix2 i (0 : Fin 1)))))
  rw [hz, ofBits_one]
  rfl

/-- The gated feature at (p, q) of a block is the reference's at (i, q): the gate's entry times the product's entry. -/
theorem gated_entry (X : FVec Ideal Cert.ReferenceIdeal.S50000x256 .f32) (xb : FVec Ideal Cert.KernelIdeal.S2000x256 .f32)
    (W : FVec Ideal Cert.KernelIdeal.S256x256 .f32) (a2 : FVec Ideal Cert.KernelIdeal.S256x1 .f32) (i : Fin 50000) (p : Fin 2000)
    (h : ∀ l : Fin 256, xb (ix2 p l) = X (ix2 i l)) (q : Fin 256) :
    k0_pay3 (F := Ideal) xb W a2 (ix2 p q) = Cert.ReferenceIdeal.Spec.gated (F := Ideal) X W a2 (ix2 i q) := by
  unfold k0_pay3 Cert.ReferenceIdeal.Spec.gated
  show broadcastTo Cert.KernelIdeal.S2000x256 (k0_pay2 (F := Ideal) xb W a2) _ (ix2 p q)
      * k0_pay1 (F := Ideal) xb W (ix2 p q)
    = broadcastInDim Cert.ReferenceIdeal.S50000x256 ![0, 1] _
        (Cert.ReferenceIdeal.Spec.gate (F := Ideal) X W a2) (ix2 i q)
      * Cert.ReferenceIdeal.Spec.support (F := Ideal) X W (ix2 i q)
  rw [broadcastTo_a1_ab_apply, bcastInDim_col_apply, gate_entry X xb W a2 i p h, support_entry X xb W i p h q]

end Cert.Bridge

end
-- ==== Proof.Blocks0.lean ====
/-
  From blocks to whole arrays, first launch. The launch runs over 25 grid points; at point t the body reads rows
  2000·t … 2000·t + 1999 of `x` (and all of `W` and `a2`) and writes back rows 2000·t … 2000·t + 1999 of the two
  results. Entry (p, q) of the block written at point t depends on row p of the block read, which is row 2000·t + p of
  `x`; so what point t writes back is block t of ONE whole-array function of the arguments as the launch finds them —
  the reference's gated features, and its gate column — and, the 25 blocks covering the 50000 rows, each result array
  ends holding that function.
-/
import proofs.«101418_j21045339750531_1_alg».proof.Proof.Stage1
import proofs.«101418_j21045339750531_1_alg».proof.Proof.Gen.KernelIdeal.Frame
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows sit at block (t, 0), the whole-array ones at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The block of `x` at point t, read at (p, l), is `x` at any index with row 2000·t + p and column l. -/
theorem xblock_apply (c : Dev nD) (t : Fin cfg0.N) (y : S2000x256.Idx) (k : S50000x256.Idx)
    (hk0 : (k 0).val = 2000 * t.val + (y 0).val) (hk1 : (k 1).val = (y 1).val) :
    (iblk0 V c 0 t : Vec Ideal S2000x256 .f32) y = (V c main_arg0 : S50000x256.Idx → Elt Ideal .f32) k := by
  obtain ⟨e0, e1, -⟩ := idx0 t
  unfold iblk0
  rw [View.read_apply]
  show V c main_arg0 _ = V c main_arg0 _
  refine congrArg _ ?_
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 256 + 1 * (y 1).val = (k 1).val; rw [e1, hk1]; omega

/-- The window over all of `W` reads `W`. -/
theorem wblock_eq (c : Dev nD) (t : Fin cfg0.N) :
    (iblk0 V c 1 t : Vec Ideal S256x256 .f32) = (V c main_arg3 : S256x256.Idx → Elt Ideal .f32) := by
  obtain ⟨-, -, e0, e1, -⟩ := idx0 t
  funext y
  unfold iblk0
  rw [View.read_apply]
  show V c main_arg3 _ = V c main_arg3 _
  refine congrArg _ ?_
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The window over all of `a2` reads `a2`. -/
theorem ablock_eq (c : Dev nD) (t : Fin cfg0.N) :
    (iblk0 V c 2 t : Vec Ideal S256x1 .f32) = (V c main_arg5 : S256x1.Idx → Elt Ideal .f32) := by
  obtain ⟨-, -, -, -, e0, e1, -⟩ := idx0 t
  funext y
  unfold iblk0
  rw [View.read_apply]
  show V c main_arg5 _ = V c main_arg5 _
  refine congrArg _ ?_
  funext a
  apply Fin.ext
  match a with
  | ⟨0, _⟩ => show win0_2.index t (0 : Fin 2) * 256 + 1 * (y 0).val = (y 0).val; rw [e0]; omega
  | ⟨1, _⟩ => show win0_2.index t (1 : Fin 2) * 1 + 1 * (y 1).val = (y 1).val; rw [e1]; omega

/-- The gated features of a block at an index `y` are the reference's at any index `I` with the same column whose row
    is, in `x`, the block's row. -/
theorem gated_block (X : FVec Ideal S50000x256 .f32) (xb : FVec Ideal S2000x256 .f32) (Wb W : FVec Ideal S256x256 .f32)
    (ab a2 : FVec Ideal S256x1 .f32) (hW : Wb = W) (ha : ab = a2) (y : S2000x256.Idx) (I : S50000x256.Idx)
    (hcol : (I 1).val = (y 1).val) (hrow : ∀ l : Fin 256, xb (ix2 (y 0) l) = X (ix2 (I 0) l)) :
    k0_pay3 (F := Ideal) xb Wb ab y = Cert.ReferenceIdeal.Spec.gated (F := Ideal) X W a2 I := by
  subst hW ha
  obtain ⟨p, q, rfl⟩ : ∃ (p : Fin 2000) (q : Fin 256), y = ix2 p q := ⟨y 0, y 1, eq_ix2 y⟩
  obtain ⟨i, q', rfl⟩ : ∃ (i : Fin 50000) (q' : Fin 256), I = ix2 i q' := ⟨I 0, I 1, eq_ix2 I⟩
  have hq : q' = q := Fin.ext hcol
  subst hq
  exact Cert.Bridge.gated_entry X xb Wb ab i p hrow q'

/-- The gate column of a block at `y` is the reference's at any index `I` whose row is, in `x`, the block's row. -/
theorem gate_block (X : FVec Ideal S50000x256 .f32) (xb : FVec Ideal S2000x256 .f32) (Wb W : FVec Ideal S256x256 .f32)
    (ab a2 : FVec Ideal S256x1 .f32) (hW : Wb = W) (ha : ab = a2) (y : S2000x1.Idx) (I : S50000x1.Idx)
    (hrow : ∀ l : Fin 256, xb (ix2 (y 0) l) = X (ix2 (I 0) l)) :
    k0_pay2 (F := Ideal) xb Wb ab y = Cert.ReferenceIdeal.Spec.gate (F := Ideal) X W a2 I := by
  subst hW ha
  obtain ⟨p, u, rfl⟩ : ∃ (p : Fin 2000) (u : Fin 1), y = ix2 p u := ⟨y 0, y 1, eq_ix2 y⟩
  obtain ⟨i, u', rfl⟩ : ∃ (i : Fin 50000) (u' : Fin 1), I = ix2 i u' := ⟨I 0, I 1, eq_ix2 I⟩
  obtain rfl : u = 0 := Subsingleton.elim _ _
  obtain rfl : u' = 0 := Subsingleton.elim _ _
  exact Cert.Bridge.gate_entry X xb Wb ab i p hrow

/-- The gated features as the first launch finds its arguments. -/
abbrev G3 (c : Dev nD) : Buf (Elt Ideal) ((c : Thread nD τ).loc main_v4_0) :=
  Cert.ReferenceIdeal.Spec.gated (F := Ideal) (V c main_arg0) (V c main_arg3) (V c main_arg5)

/-- The gate column as the first launch finds its arguments. -/
abbrev G4 (c : Dev nD) : Buf (Elt Ideal) ((c : Thread nD τ).loc main_v4_1) :=
  Cert.ReferenceIdeal.Spec.gate (F := Ideal) (V c main_arg0) (V c main_arg3) (V c main_arg5)

/-- What point t writes back to the first result is block t of the gated features. -/
theorem flushed0_3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz2]
  simp only [View.ld_unit_zero (S := S2000x256) hz2, View.ld_unit_zero (S := S256x256) hz2, View.ld_unit_zero (S := S256x1) hz2]
  obtain ⟨-, -, -, -, -, -, e0, e1, -⟩ := idx0 t
  funext j
  show k0_pay3 (F := Ideal) (iblk0 V c 0 t) (iblk0 V c 1 t) (iblk0 V c 2 t) j = G3 V c (((cfg0.win 3).blk t).view.emb j)
  refine gated_block (V c main_arg0) (iblk0 V c 0 t) (iblk0 V c 1 t) (V c main_arg3) (iblk0 V c 2 t) (V c main_arg5)
    (wblock_eq V c t) (ablock_eq V c t) j _ ?_ ?_
  · show win0_3.index t (1 : Fin 2) * 256 + 1 * (j 1).val = (j 1).val
    rw [e1]; omega
  · intro l
    refine xblock_apply V c t _ _ ?_ rfl
    show win0_3.index t (0 : Fin 2) * 2000 + 1 * (j 0).val = 2000 * t.val + (j 0).val
    rw [e0]; omega

/-- What point t writes back to the second result is block t of the gate column. -/
theorem flushed0_4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz2]
  simp only [View.ld_unit_zero (S := S2000x256) hz2, View.ld_unit_zero (S := S256x256) hz2, View.ld_unit_zero (S := S256x1) hz2]
  obtain ⟨-, -, -, -, -, -, -, -, e0, e1⟩ := idx0 t
  funext j
  show k0_pay2 (F := Ideal) (iblk0 V c 0 t) (iblk0 V c 1 t) (iblk0 V c 2 t) j = G4 V c (((cfg0.win 4).blk t).view.emb j)
  refine gate_block (V c main_arg0) (iblk0 V c 0 t) (iblk0 V c 1 t) (V c main_arg3) (iblk0 V c 2 t) (V c main_arg5)
    (wblock_eq V c t) (ablock_eq V c t) j _ ?_
  intro l
  refine xblock_apply V c t _ _ ?_ rfl
  show win0_4.index t (0 : Fin 2) * 2000 + 1 * (j 0).val = 2000 * t.val + (j 0).val
  rw [e0]; omega

/-- An index of the first result is in point t's block iff its coordinates are in the block's ranges. -/
theorem mem_blk0_3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v4_0).slice (win0_3.rect t)).set ↔ _
  rw [View.set_slice_whole, Rect.mem_set_unit]
  exact Iff.rfl

theorem mem_blk0_4 (t : Fin cfg0.N) (i : S50000x1.Idx) :
    i ∈ ((cfg0.win 4).blk t).view.set ↔ ∀ a : Fin 2, win0_4.index t a * S2000x1.size a ≤ (i a).val ∧ (i a).val < win0_4.index t a * S2000x1.size a + S2000x1.size a := by
  show i ∈ ((View.whole main_v4_1).slice (win0_4.rect t)).set ↔ _
  rw [View.set_slice_whole, Rect.mem_set_unit]
  exact Iff.rfl

/-- Row r of the first result is in the block of point r / 2000. -/
theorem cover0_3 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_3 _, ?_⟩
  rw [mem_blk0_3]
  obtain ⟨-, -, -, -, -, -, e0, e1, -⟩ := idx0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e1]; omega

theorem cover0_4 (i : S50000x1.Idx) : ∃ t : Fin cfg0.N, (cfg0.win 4).flush t = true ∧ i ∈ ((cfg0.win 4).blk t).view.set := by
  have hi0 : (i 0).val < 50000 := (i 0).isLt
  have hi1 : (i 1).val < 1 := (i 1).isLt
  have hN : cfg0.N = 25 := N_0
  refine ⟨⟨(i 0).val / 2000, by rw [hN]; omega⟩, flush0_4 _, ?_⟩
  rw [mem_blk0_4]
  obtain ⟨-, -, -, -, -, -, -, -, e0, e1⟩ := idx0 ⟨(i 0).val / 2000, by rw [hN]; omega⟩
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 1 ≤ (i 1).val ∧ (i 1).val < win0_4.index _ (1 : Fin 2) * 1 + 1
    rw [e1]; omega

/-- After the first launch its first result holds the gated features of the arguments as the launch found them. -/
theorem final0_3 (c : Dev nD) : (dat0 V c).arrAt 3 cfg0.N = G3 V c :=
  (dat0 V c).arrAt_eq_of_cover 3 (G3 V c) (fun t _ => flushed0_3_eq V c t) (cover0_3)

/-- and its second result the gate column. -/
theorem final0_4 (c : Dev nD) : (dat0 V c).arrAt 4 cfg0.N = G4 V c :=
  (dat0 V c).arrAt_eq_of_cover 4 (G4 V c) (fun t _ => flushed0_4_eq V c t) (cover0_4)

end Cert.KernelIdeal.Blocks

end
-- ==== Proof.Stage3.lean ====
/-
  The second launch against the reference's last stage, one entry at a time.

  A block of 2000 rows of the aggregate `raw` and of the normaliser column go through: the quotient raw / norm (the
  column spread along the row), its product with the column `a1` (entry p of the block's product is entry i of the
  whole product, the same sum over k < 256), softplus of that, the gated piecewise activation and elu. Entry (p, q)
  of the block depends only on row p of the block, which is row i of the whole arrays, and every operation is the
  reference's own up to three spellings that are one function on the extended reals:
    * `0 - a` and `-a`;
    * `z ≠ z` ordered and unordered (there is nothing unordered: both are false);
    * `exp p - 1` and `1 · expm1 p'` with `p' = p` wherever the branch is taken (`p > 0` false), `expm1 p = exp p - 1`.
-/
import proofs.«101418_j21045339750531_1_alg».proof.Proof.Stage1

noncomputable section

namespace Cert.Bridge

open Idealize.ShloMosaic Idealize.ShloMosaic.ValueIdx
open Cert.Lib.PlainProduct Cert.Lib.DenseLayouts Cert.Lib.IdealSpellings
open Cert.KernelIdeal.Gen Cert.ReferenceIdeal.Gen
open scoped BigOperators

/-- The quotient's entry (p, l) of a block is the reference's at (i, l). -/
theorem quotient_entry (RAW : FVec Ideal Cert.ReferenceIdeal.S50000x256 .f32) (NRM : FVec Ideal Cert.ReferenceIdeal.S50000x1 .f32)
    (rb : FVec Ideal Cert.KernelIdeal.S2000x256 .f32) (nb : FVec Ideal Cert.KernelIdeal.S2000x1 .f32) (i : Fin 50000) (p : Fin 2000)
    (hr : ∀ l : Fin 256, rb (ix2 p l) = RAW (ix2 i l)) (hn : nb (ix2 p (0 : Fin 1)) = NRM (ix2 i (0 : Fin 1))) (l : Fin 256)
    (h1 : Cert.KernelIdeal.S2000x256.ShapeCasts Cert.KernelIdeal.S2000x256) (h2 : Cert.KernelIdeal.S2000x1.ShapeCasts Cert.KernelIdeal.S2000x1)
    (h3 : Cert.KernelIdeal.S2000x1.Broadcasts Cert.KernelIdeal.S2000x256) :
    divf (shapeCast Cert.KernelIdeal.S2000x256 rb h1) (broadcastTo Cert.KernelIdeal.S2000x256 (shapeCast Cert.KernelIdeal.S2000x1 nb h2) h3) (ix2 p l)
      = Cert.ReferenceIdeal.Spec.quotient (F := Ideal) RAW NRM (ix2 i l) := by
  unfold Cert.ReferenceIdeal.Spec.quotient
  show Ideal.div (shapeCast Cert.KernelIdeal.S2000x256 rb h1 (ix2 p l))
      (broadcastTo Cert.KernelIdeal.S2000x256 (shapeCast Cert.KernelIdeal.S2000x1 nb h2) h3 (ix2 p l))
    = Ideal.div (RAW (ix2 i l)) (broadcastInDim Cert.ReferenceIdeal.S50000x256 ![0, 1] _ NRM (ix2 i l))
  rw [shapeCast_self, shapeCast_self, broadcastTo_a1_ab_apply, bcastInDim_col_apply, hr l, hn]

/-- softplus at row p of a block column is the reference's at row i when the arguments agree there. -/
theorem softplus_entry (Z : FVec Ideal Cert.ReferenceIdeal.S50000x1 .f32) (z : FVec Ideal Cert.KernelIdeal.S2000x1 .f32)
    (i : Fin 50000) (p : Fin 2000) (hz : z (ix2 p (0 : Fin 1)) = Z (ix2 i (0 : Fin 1))) :
    select (cmpf .one (subf z (broadcast Cert.KernelIdeal.S2000x1 (Scalar.ofBits (F := Ideal) .f32 0x00000000#32)))
        (subf z (broadcast Cert.KernelIdeal.S2000x1 (Scalar.ofBits (F := Ideal) .f32 0x00000000#32))))
      (addf z (broadcast Cert.KernelIdeal.S2000x1 (Scalar.ofBits (F := Ideal) .f32 0x00000000#32)))
      (addf (maximumf z (broadcast Cert.KernelIdeal.S2000x1 (Scalar.ofBits (F := Ideal) .f32 0x00000000#32)))
        (log1p (exp (subf (broadcast Cert.KernelIdeal.S2000x1 (Scalar.ofBits (F := Ideal) .f32 0x00000000#32))
          (absf (subf z (broadcast Cert.KernelIdeal.S2000x1 (Scalar.ofBits (F := Ideal) .f32 0x00000000#32))))))))
      (ix2 p (0 : Fin 1))
    = Cert.ReferenceIdeal.Spec.softplus (F := Ideal) Z (ix2 i (0 : Fin 1)) := by
  unfold Cert.ReferenceIdeal.Spec.softplus
  show Scalar.select (Ideal.cmp .one (z (ix2 p (0 : Fin 1)) - Ideal.ofBits .f32 0x00000000#32) (z (ix2 p (0 : Fin 1)) - Ideal.ofBits .f32 0x00000000#32))
      (z (ix2 p (0 : Fin 1)) + Ideal.ofBits .f32 0x00000000#32)
      (max (z (ix2 p (0 : Fin 1))) (Ideal.ofBits .f32 0x00000000#32)
        + Ideal.log1p (Ideal.exp (Ideal.ofBits .f32 0x00000000#32 - FloatOps.absf (F := Ideal) (z (ix2 p (0 : Fin 1)) - Ideal.ofBits .f32 0x00000000#32))))
    = Scalar.select (Ideal.cmp .une (Z (ix2 i (0 : Fin 1)) - Ideal.ofBits .f32 0x00000000#32) (Z (ix2 i (0 : Fin 1)) - Ideal.ofBits .f32 0x00000000#32))
      (Z (ix2 i (0 : Fin 1)) + Ideal.ofBits .f32 0x00000000#32)
      (max (Z (ix2 i (0 : Fin 1))) (Ideal.ofBits .f32 0x00000000#32)
        + Ideal.log1p (Ideal.exp (-(FloatOps.absf (F := Ideal) (Z (ix2 i (0 : Fin 1)) - Ideal.ofBits .f32 0x00000000#32)))))
  rw [hz, zero_lit_sub]
  rfl

/-! ## The block's computation in four steps -/

/-- The quotient of a block of the aggregate by its normaliser column. -/
def quotK (rb : FVec Ideal Cert.KernelIdeal.S2000x256 .f32) (nb : FVec Ideal Cert.KernelIdeal.S2000x1 .f32) : FVec Ideal Cert.KernelIdeal.S2000x256 .f32 :=
  divf (shapeCast Cert.KernelIdeal.S2000x256 rb Cert.KernelIdeal.Facts₀.shapeCasts_S2000x256_S2000x256)
    (broadcastTo Cert.KernelIdeal.S2000x256 (shapeCast Cert.KernelIdeal.S2000x1 nb Cert.KernelIdeal.Facts₀.shapeCasts_S2000x1_S2000x1) Cert.KernelIdeal.Facts₀.broadcasts_S2000x1_S2000x256)

/-- Its product with the column `a1`. -/
def logitK (o : FVec Ideal Cert.KernelIdeal.S2000x256 .f32) (a1 : FVec Ideal Cert.KernelIdeal.S256x1 .f32) : FVec Ideal Cert.KernelIdeal.S2000x1 .f32 :=
  matmul Cert.KernelIdeal.dot_S2000x256_S256x1_S2000x1_1_0_0_1_n_n none (truncf .bf16 o Cert.KernelIdeal.Facts₀.bitsLt_bf16_f32)
    (truncf .bf16 a1 Cert.KernelIdeal.Facts₀.bitsLt_bf16_f32) (constant Cert.KernelIdeal.S2000x1 .f32 0x00000000#32)

/-- softplus of a block column, as the body spells it. -/
def spK (z : FVec Ideal Cert.KernelIdeal.S2000x1 .f32) : FVec Ideal Cert.KernelIdeal.S2000x1 .f32 :=
  select (cmpf .one (subf z (broadcast Cert.KernelIdeal.S2000x1 (Scalar.ofBits (F := Ideal) .f32 0x00000000#32))) (subf z (broadcast Cert.KernelIdeal.S2000x1 (Scalar.ofBits (F := Ideal) .f32 0x00000000#32)))) (addf z (broadcast Cert.KernelIdeal.S2000x1 (Scalar.ofBits (F := Ideal) .f32 0x00000000#32)))
    (addf (maximumf z (broadcast Cert.KernelIdeal.S2000x1 (Scalar.ofBits (F := Ideal) .f32 0x00000000#32))) (log1p (exp (subf (broadcast Cert.KernelIdeal.S2000x1 (Scalar.ofBits (F := Ideal) .f32 0x00000000#32)) (absf (subf z (broadcast Cert.KernelIdeal.S2000x1 (Scalar.ofBits (F := Ideal) .f32 0x00000000#32))))))))

/-- The gated piecewise activation followed by elu, from the quotient block `o` and the softplus column `s`. -/
def tailK (o : FVec Ideal Cert.KernelIdeal.S2000x256 .f32) (s : FVec Ideal Cert.KernelIdeal.S2000x1 .f32) : FVec Ideal Cert.KernelIdeal.S2000x256 .f32 :=
  select (cmpf .ogt (addf (maximumf o (broadcast Cert.KernelIdeal.S2000x256 (Scalar.ofBits (F := Ideal) .f32 0x00000000#32))) (mulf (broadcastTo Cert.KernelIdeal.S2000x256 s Cert.KernelIdeal.Facts₀.broadcasts_S2000x1_S2000x256) (minimumf o (broadcast Cert.KernelIdeal.S2000x256 (Scalar.ofBits (F := Ideal) .f32 0x00000000#32))))) (broadcast Cert.KernelIdeal.S2000x256 (Scalar.ofBits (F := Ideal) .f32 0x00000000#32))) (addf (maximumf o (broadcast Cert.KernelIdeal.S2000x256 (Scalar.ofBits (F := Ideal) .f32 0x00000000#32))) (mulf (broadcastTo Cert.KernelIdeal.S2000x256 s Cert.KernelIdeal.Facts₀.broadcasts_S2000x1_S2000x256) (minimumf o (broadcast Cert.KernelIdeal.S2000x256 (Scalar.ofBits (F := Ideal) .f32 0x00000000#32))))) (subf (exp (addf (maximumf o (broadcast Cert.KernelIdeal.S2000x256 (Scalar.ofBits (F := Ideal) .f32 0x00000000#32))) (mulf (broadcastTo Cert.KernelIdeal.S2000x256 s Cert.KernelIdeal.Facts₀.broadcasts_S2000x1_S2000x256) (minimumf o (broadcast Cert.KernelIdeal.S2000x256 (Scalar.ofBits (F := Ideal) .f32 0x00000000#32)))))) (broadcast Cert.KernelIdeal.S2000x256 (Scalar.ofBits (F := Ideal) .f32 0x3F800000#32)))

/-- The body's stored value is the composition of the four steps. -/
theorem pay_eq (rb : FVec Ideal Cert.KernelIdeal.S2000x256 .f32) (nb : FVec Ideal Cert.KernelIdeal.S2000x1 .f32) (a1 : FVec Ideal Cert.KernelIdeal.S256x1 .f32) :
    k1_pay1 (F := Ideal) rb nb a1 = tailK (quotK rb nb) (spK (logitK (quotK rb nb) a1)) := rfl

/-- The last step at (p, q) of a block is the reference's `elu (max(O,0) + S ⊙ min(O,0))` at (i, q) when the quotient
    agrees at (p, q) / (i, q) and the softplus column at p / i. -/
theorem tail_entry (O : FVec Ideal Cert.ReferenceIdeal.S50000x256 .f32) (S : FVec Ideal Cert.ReferenceIdeal.S50000x1 .f32)
    (o : FVec Ideal Cert.KernelIdeal.S2000x256 .f32) (s : FVec Ideal Cert.KernelIdeal.S2000x1 .f32) (i : Fin 50000) (p : Fin 2000) (q : Fin 256)
    (ho : o (ix2 p q) = O (ix2 i q)) (hs : s (ix2 p (0 : Fin 1)) = S (ix2 i (0 : Fin 1))) :
    tailK o s (ix2 p q) = Cert.ReferenceIdeal.Spec.elu (F := Ideal) (addf (maximumf O (broadcastInDim Cert.ReferenceIdeal.S50000x256 ![] Cert.ReferenceIdeal.Facts₀.bcast_S_S50000x256 (constant (F := Ideal) Cert.ReferenceIdeal.S_ .f32 0x00000000#32))) (mulf (broadcastInDim Cert.ReferenceIdeal.S50000x256 ![0, 1] Cert.ReferenceIdeal.Facts₀.bcast_S50000x1_S50000x256_0_1 S) (minimumf O (broadcastInDim Cert.ReferenceIdeal.S50000x256 ![] Cert.ReferenceIdeal.Facts₀.bcast_S_S50000x256 (constant (F := Ideal) Cert.ReferenceIdeal.S_ .f32 0x00000000#32))))) (ix2 i q) := by
  unfold tailK Cert.ReferenceIdeal.Spec.elu
  show Scalar.select (Ideal.cmp .ogt (max (o (ix2 p q)) (Ideal.ofBits .f32 0x00000000#32) + broadcastTo Cert.KernelIdeal.S2000x256 s Cert.KernelIdeal.Facts₀.broadcasts_S2000x1_S2000x256 (ix2 p q) * min (o (ix2 p q)) (Ideal.ofBits .f32 0x00000000#32)) (Ideal.ofBits .f32 0x00000000#32)) (max (o (ix2 p q)) (Ideal.ofBits .f32 0x00000000#32) + broadcastTo Cert.KernelIdeal.S2000x256 s Cert.KernelIdeal.Facts₀.broadcasts_S2000x1_S2000x256 (ix2 p q) * min (o (ix2 p q)) (Ideal.ofBits .f32 0x00000000#32)) (Ideal.exp (max (o (ix2 p q)) (Ideal.ofBits .f32 0x00000000#32) + broadcastTo Cert.KernelIdeal.S2000x256 s Cert.KernelIdeal.Facts₀.broadcasts_S2000x1_S2000x256 (ix2 p q) * min (o (ix2 p q)) (Ideal.ofBits .f32 0x00000000#32)) - Ideal.ofBits .f32 0x3F800000#32)
    = Scalar.select (Ideal.cmp .ogt (max (O (ix2 i q)) (Ideal.ofBits .f32 0x00000000#32) + broadcastInDim Cert.ReferenceIdeal.S50000x256 ![0, 1] Cert.ReferenceIdeal.Facts₀.bcast_S50000x1_S50000x256_0_1 S (ix2 i q) * min (O (ix2 i q)) (Ideal.ofBits .f32 0x00000000#32)) (Ideal.ofBits .f32 0x00000000#32)) (max (O (ix2 i q)) (Ideal.ofBits .f32 0x00000000#32) + broadcastInDim Cert.ReferenceIdeal.S50000x256 ![0, 1] Cert.ReferenceIdeal.Facts₀.bcast_S50000x1_S50000x256_0_1 S (ix2 i q) * min (O (ix2 i q)) (Ideal.ofBits .f32 0x00000000#32))
        (Ideal.ofBits .f32 0x3F800000#32 * (Ideal.exp (Scalar.select (Ideal.cmp .ogt (max (O (ix2 i q)) (Ideal.ofBits .f32 0x00000000#32) + broadcastInDim Cert.ReferenceIdeal.S50000x256 ![0, 1] Cert.ReferenceIdeal.Facts₀.bcast_S50000x1_S50000x256_0_1 S (ix2 i q) * min (O (ix2 i q)) (Ideal.ofBits .f32 0x00000000#32)) (Ideal.ofBits .f32 0x00000000#32)) (Ideal.ofBits .f32 0x00000000#32) (max (O (ix2 i q)) (Ideal.ofBits .f32 0x00000000#32) + broadcastInDim Cert.ReferenceIdeal.S50000x256 ![0, 1] Cert.ReferenceIdeal.Facts₀.bcast_S50000x1_S50000x256_0_1 S (ix2 i q) * min (O (ix2 i q)) (Ideal.ofBits .f32 0x00000000#32))) - 1))
  rw [broadcastTo_a1_ab_apply, bcastInDim_col_apply, ho, hs]
  exact elu_scalar _

/-- Entry (p, q) of what the body stores is entry (i, q) of the reference's last stage, when row p of the aggregate's
    block is row i of the aggregate and the normaliser agrees at p / i. -/
theorem final_entry (RAW : FVec Ideal Cert.ReferenceIdeal.S50000x256 .f32) (NRM : FVec Ideal Cert.ReferenceIdeal.S50000x1 .f32)
    (rb : FVec Ideal Cert.KernelIdeal.S2000x256 .f32) (nb : FVec Ideal Cert.KernelIdeal.S2000x1 .f32) (a1 : FVec Ideal Cert.KernelIdeal.S256x1 .f32)
    (i : Fin 50000) (p : Fin 2000)
    (hr : ∀ l : Fin 256, rb (ix2 p l) = RAW (ix2 i l)) (hn : nb (ix2 p (0 : Fin 1)) = NRM (ix2 i (0 : Fin 1))) (q : Fin 256) :
    k1_pay1 (F := Ideal) rb nb a1 (ix2 p q) = Cert.ReferenceIdeal.Spec.final (F := Ideal) RAW NRM a1 (ix2 i q) := by
  have hq : ∀ l : Fin 256, quotK rb nb (ix2 p l) = Cert.ReferenceIdeal.Spec.quotient (F := Ideal) RAW NRM (ix2 i l) :=
    fun l => quotient_entry RAW NRM rb nb i p hr hn l _ _ _
  have hlogit : logitK (quotK rb nb) a1 (ix2 p (0 : Fin 1))
      = Host.dotGeneral Cert.ReferenceIdeal.dot_S50000x256_S256x1_S50000x1_1_0_0_1_n_n none (Cert.ReferenceIdeal.Spec.quotient (F := Ideal) RAW NRM) a1 (ix2 i (0 : Fin 1)) := by
    unfold logitK
    refine (matmul_zero_apply plainK1 rfl rfl none _ _ p 0).trans ?_
    refine Eq.trans ?_ (dotGeneral_apply plainR1 rfl rfl none _ _ a1 i 0).symm
    exact Finset.sum_congr rfl fun k _ => by rw [truncf_apply, truncf_apply, hq k]
  have hsp : spK (logitK (quotK rb nb) a1) (ix2 p (0 : Fin 1))
      = Cert.ReferenceIdeal.Spec.softplus (F := Ideal) (Host.dotGeneral Cert.ReferenceIdeal.dot_S50000x256_S256x1_S50000x1_1_0_0_1_n_n none
          (Cert.ReferenceIdeal.Spec.quotient (F := Ideal) RAW NRM) a1) (ix2 i (0 : Fin 1)) :=
    softplus_entry _ _ i p hlogit
  rw [pay_eq]
  exact tail_entry _ _ _ _ i p q (hq q) hsp

end Cert.Bridge

end
-- ==== Proof.Blocks1.lean ====
/-
  From blocks to the whole array, second launch. At grid point t the body reads rows 2000·t … 2000·t + 1999 of the
  aggregate and of the normaliser column (and all of `a1`) and writes back the same rows of the result. Entry (p, q) of
  the block written depends on row p of the blocks read — row 2000·t + p of the whole arrays — so what point t writes
  back is block t of the reference's last stage applied to the arrays as the launch finds them; the 25 blocks cover
  the 50000 rows, so the result array ends holding that.
-/
import proofs.«101418_j21045339750531_1_alg».proof.Proof.Stage3
import proofs.«101418_j21045339750531_1_alg».proof.Proof.Gen.KernelIdeal.Frame
import Idealize.ShloMosaic.Lib.Pipeline.Value

set_option maxRecDepth 16384

noncomputable section

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows sit at block (t, 0), the whole-array one at (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point t, read at (p, l), is the aggregate at any index with row 2000·t + p, column l. -/
theorem rblock_apply (c : Dev nD) (t : Fin cfg1.N) (y : S2000x256.Idx) (k : S50000x256.Idx)
    (hk0 : (k 0).val = 2000 * t.val + (y 0).val) (hk1 : (k 1).val = (y 1).val) :
    (iblk1 V c 0 t : Vec Ideal S2000x256 .f32) y = (V c main_v17 : S50000x256.Idx → Elt Ideal .f32) k := by
  obtain ⟨e0, e1, -⟩ := idx1 t
  unfold iblk1
  rw [View.read_apply]
  show V c main_v17 _ = V c main_v17 _
  refine congrArg _ ?_
  funext a
  apply Fin.ext
  match a with
  | ⟨0, _⟩ => show win1_0.index t (0 : Fin 2) * 2000 + 1 * (y 0).val = (k 0).val; rw [e0, hk0]; omega
  | ⟨1, _⟩ => show win1_0.index t (1 : Fin 2) * 256 + 1 * (y 1).val = (k 1).val; rw [e1, hk1]; omega

/-- The normaliser's block at point t, read at (p, 0), is the normaliser at any index with row 2000·t + p. -/
theorem nblock_apply (c : Dev nD) (t : Fin cfg1.N) (y : S2000x1.Idx) (k : S50000x1.Idx)
    (hk0 : (k 0).val = 2000 * t.val + (y 0).val) :
    (iblk1 V c 1 t : Vec Ideal S2000x1 .f32) y = (V c main_v33 : S50000x1.Idx → Elt Ideal .f32) k := by
  obtain ⟨-, -, e0, e1, -⟩ := idx1 t
  have hy1 : (y 1).val < 1 := (y 1).isLt
  have hk1 : (k 1).val < 1 := (k 1).isLt
  unfold iblk1
  rw [View.read_apply]
  show V c main_v33 _ = V c main_v33 _
  refine congrArg _ ?_
  funext a
  apply Fin.ext
  match a with
  | ⟨0, _⟩ => show win1_1.index t (0 : Fin 2) * 2000 + 1 * (y 0).val = (k 0).val; rw [e0, hk0]; omega
  | ⟨1, _⟩ => show win1_1.index t (1 : Fin 2) * 1 + 1 * (y 1).val = (k 1).val; rw [e1]; omega

/-- The window over all of `a1` reads `a1`. -/
theorem ablock_eq (c : Dev nD) (t : Fin cfg1.N) :
    (iblk1 V c 2 t : Vec Ideal S256x1 .f32) = (V c main_arg4 : S256x1.Idx → Elt Ideal .f32) := by
  obtain ⟨-, -, -, -, e0, e1, -⟩ := idx1 t
  funext y
  unfold iblk1
  rw [View.read_apply]
  show V c main_arg4 _ = V c main_arg4 _
  refine congrArg _ ?_
  funext a
  apply Fin.ext
  match a with
  | ⟨0, _⟩ => show win1_2.index t (0 : Fin 2) * 256 + 1 * (y 0).val = (y 0).val; rw [e0]; omega
  | ⟨1, _⟩ => show win1_2.index t (1 : Fin 2) * 1 + 1 * (y 1).val = (y 1).val; rw [e1]; omega

/-- What the body stores at an index `y` of a block is the reference's last stage at any index `I` with the same
    column whose row is, in the aggregate and in the normaliser, the block's row. -/
theorem final_block (RAW : FVec Ideal S50000x256 .f32) (NRM : FVec Ideal S50000x1 .f32) (rb : FVec Ideal S2000x256 .f32)
    (nb : FVec Ideal S2000x1 .f32) (ab a1 : FVec Ideal S256x1 .f32) (ha : ab = a1) (y : S2000x256.Idx) (I : S50000x256.Idx)
    (hcol : (I 1).val = (y 1).val) (hrow : ∀ l : Fin 256, rb (ix2 (y 0) l) = RAW (ix2 (I 0) l))
    (hn : nb (ix2 (y 0) (0 : Fin 1)) = NRM (ix2 (I 0) (0 : Fin 1))) :
    k1_pay1 (F := Ideal) rb nb ab y = Cert.ReferenceIdeal.Spec.final (F := Ideal) RAW NRM a1 I := by
  subst ha
  obtain ⟨p, q, rfl⟩ : ∃ (p : Fin 2000) (q : Fin 256), y = ix2 p q := ⟨y 0, y 1, eq_ix2 y⟩
  obtain ⟨i, q', rfl⟩ : ∃ (i : Fin 50000) (q' : Fin 256), I = ix2 i q' := ⟨I 0, I 1, eq_ix2 I⟩
  have hq : q' = q := Fin.ext hcol
  subst hq
  exact Cert.Bridge.final_entry RAW NRM rb nb ab i p hrow hn q'

/-- The reference's last stage applied to the arrays as the second launch finds them. -/
abbrev G (c : Dev nD) : Buf (Elt Ideal) ((c : Thread nD τ).loc main_v34) :=
  Cert.ReferenceIdeal.Spec.final (F := Ideal) (V c main_v17) (V c main_v33) (V c main_arg4)

/-- What point t writes back is block t of that. -/
theorem flushed1_3_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S2000x256) hz2, View.ld_unit_zero (S := S2000x1) hz2, View.ld_unit_zero (S := S256x1) hz2]
  obtain ⟨-, -, -, -, -, -, e0, e1⟩ := idx1 t
  funext j
  show k1_pay1 (F := Ideal) (iblk1 V c 0 t) (iblk1 V c 1 t) (iblk1 V c 2 t) j = G V c (((cfg1.win 3).blk t).view.emb j)
  refine final_block (V c main_v17) (V c main_v33) (iblk1 V c 0 t) (iblk1 V c 1 t) (iblk1 V c 2 t) (V c main_arg4)
    (ablock_eq V c t) j _ ?_ ?_ ?_
  · show win1_3.index t (1 : Fin 2) * 256 + 1 * (j 1).val = (j 1).val
    rw [e1]; omega
  · intro l
    refine rblock_apply V c t _ _ ?_ rfl
    show win1_3.index t (0 : Fin 2) * 2000 + 1 * (j 0).val = 2000 * t.val + (j 0).val
    rw [e0]; omega
  · refine nblock_apply V c t _ _ ?_
    show win1_3.index t (0 : Fin 2) * 2000 + 1 * (j 0).val = 2000 * t.val + (j 0).val
    rw [e0]; omega

/-- An index of the result is in point t's block iff its coordinates are in the block's ranges. -/
theorem mem_blk1_3 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v34).slice (win1_3.rect t)).set ↔ _
  rw [View.set_slice_whole, Rect.mem_set_unit]
  exact Iff.rfl

/-- Row r of the result is in the block of point r / 2000. -/
theorem cover1_3 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_3 _, ?_⟩
  rw [mem_blk1_3]
  obtain ⟨-, -, -, -, -, -, e0, e1⟩ := idx1 ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e0]; show (i 0).val / 2000 * 2000 ≤ (i 0).val ∧ (i 0).val < (i 0).val / 2000 * 2000 + 2000; omega
  | ⟨1, _⟩ =>
    show win1_3.index _ (1 : Fin 2) * 256 ≤ (i 1).val ∧ (i 1).val < win1_3.index _ (1 : Fin 2) * 256 + 256
    rw [e1]; omega

/-- After the second launch its result holds the reference's last stage of the arrays as the launch found them. -/
theorem final1_3 (c : Dev nD) : (dat1 V c).arrAt 3 cfg1.N = G V c :=
  (dat1 V c).arrAt_eq_of_cover 3 (G V c) (fun t _ => flushed1_3_eq V c t) (cover1_3)

end Cert.KernelIdeal.Blocks1

end
-- ==== Proof.Mid.lean ====
/-
  The host operations of the kernel program, read back. Before the first launch the two rows of the index pair array
  are cut out as vectors; between the launches the program gathers the gated rows and the gate entries at the column
  indices, scales them by the edge weights and scatter-adds them at the row indices — the reference's own
  aggregation, operation for operation, applied to the first launch's two results.
-/
import proofs.«101418_j21045339750531_1_alg».proof.Proof.Spec
import proofs.«101418_j21045339750531_1_alg».proof.Proof.Gen.KernelIdeal.Launch
import Idealize.ShloMosaic.Lib.StableHlo.Run

noncomputable section

namespace Cert.KernelIdeal.Mid

open Cert.KernelIdeal Cert.KernelIdeal.Gen
open Idealize.ShloMosaic Idealize.ShloMosaic.TcCoe Idealize.SL.Sem Idealize.ShloMosaic.StableHlo

variable {F : FTy → Type} [FloatOps F] (Wv : Valuation τ sig (Elt F))

/-- The operations before the first launch leave each argument array as it was, -/
theorem pre_arg0 : after hostOps0 Wv (Proc.devRef .tc main_arg0) = Wv (Proc.devRef .tc main_arg0) := by after_results
theorem pre_arg2 : after hostOps0 Wv (Proc.devRef .tc main_arg2) = Wv (Proc.devRef .tc main_arg2) := by after_results
theorem pre_arg3 : after hostOps0 Wv (Proc.devRef .tc main_arg3) = Wv (Proc.devRef .tc main_arg3) := by after_results
theorem pre_arg4 : after hostOps0 Wv (Proc.devRef .tc main_arg4) = Wv (Proc.devRef .tc main_arg4) := by after_results
theorem pre_arg5 : after hostOps0 Wv (Proc.devRef .tc main_arg5) = Wv (Proc.devRef .tc main_arg5) := by after_results

/-- and cut the row indices and the column indices out of the index pair array. -/
theorem pre_rows : after hostOps0 Wv (Proc.devRef .tc main_v1) = Cert.ReferenceIdeal.Spec.rowsOf (Wv (Proc.devRef .tc main_arg1)) := by
  after_results
  rfl
theorem pre_cols : after hostOps0 Wv (Proc.devRef .tc main_v3) = Cert.ReferenceIdeal.Spec.colsOf (Wv (Proc.devRef .tc main_arg1)) := by
  after_results
  rfl

/-- Between the launches: the aggregate of the gated rows, -/
theorem mid_raw : after hostOps1 Wv (Proc.devRef .tc main_v17)
    = Cert.ReferenceIdeal.Spec.raw (F := F) (Wv (Proc.devRef .tc main_v4_0)) (Wv (Proc.devRef .tc main_v1))
        (Wv (Proc.devRef .tc main_v3)) (Wv (Proc.devRef .tc main_arg2)) := by
  after_results_simp
  rfl

/-- the aggregate of the gate column, as a column, -/
theorem mid_norm : after hostOps1 Wv (Proc.devRef .tc main_v33)
    = Cert.ReferenceIdeal.Spec.norm (F := F) (Wv (Proc.devRef .tc main_v4_1)) (Wv (Proc.devRef .tc main_v1))
        (Wv (Proc.devRef .tc main_v3)) (Wv (Proc.devRef .tc main_arg2)) := by
  after_results_simp
  rfl

/-- and `a1` untouched. -/
theorem mid_arg4 : after hostOps1 Wv (Proc.devRef .tc main_arg4) = Wv (Proc.devRef .tc main_arg4) := by after_results_simp

end Cert.KernelIdeal.Mid

end
-- ==== Proof.KValue.lean ====
/-
  The idealized kernel program's result as a function of its arguments. Folding the boundaries back from the last
  one: the result array is what the second launch leaves, the reference's last stage applied to the two aggregates
  and `a1`; the aggregates are the host's aggregation of the first launch's two results at the index vectors cut out
  before it; those results are the reference's gated features and gate column of `x`, `W`, `a2`. Composed, this is
  the reference's own function of the six arguments.
-/
import proofs.«101418_j21045339750531_1_alg».proof.Proof.KRun
import proofs.«101418_j21045339750531_1_alg».proof.Proof.Blocks0
import proofs.«101418_j21045339750531_1_alg».proof.Proof.Blocks1
import proofs.«101418_j21045339750531_1_alg».proof.Proof.Mid

noncomputable section

namespace Cert.KernelIdeal.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At the first launch's entry the arguments are as launched and the index vectors are cut out. -/
theorem V1_arg0 (c : Dev nD) : V1 m ρ c main_arg0 = m ((c.tc : Thread nD τ).loc main_arg0) := (Mid.pre_arg0 (W0 m ρ c)).trans rfl
theorem V1_arg3 (c : Dev nD) : V1 m ρ c main_arg3 = m ((c.tc : Thread nD τ).loc main_arg3) := (Mid.pre_arg3 (W0 m ρ c)).trans rfl
theorem V1_arg5 (c : Dev nD) : V1 m ρ c main_arg5 = m ((c.tc : Thread nD τ).loc main_arg5) := (Mid.pre_arg5 (W0 m ρ c)).trans rfl

/-- At the first launch's exit: its two results, and everything else as at its entry. -/
theorem W2_v4_0 (c : Dev nD) : W2 m ρ c (Proc.devRef .tc main_v4_0)
    = Cert.ReferenceIdeal.Spec.gated (F := Ideal) (m ((c.tc : Thread nD τ).loc main_arg0)) (m ((c.tc : Thread nD τ).loc main_arg3)) (m ((c.tc : Thread nD τ).loc main_arg5)) := by
  refine (W2_arr m ρ c 3).trans ((Blocks.final0_3 (V1 m ρ) c).trans ?_)
  show Cert.ReferenceIdeal.Spec.gated (F := Ideal) (V1 m ρ c main_arg0) (V1 m ρ c main_arg3) (V1 m ρ c main_arg5) = _
  rw [V1_arg0, V1_arg3, V1_arg5]

theorem W2_v4_1 (c : Dev nD) : W2 m ρ c (Proc.devRef .tc main_v4_1)
    = Cert.ReferenceIdeal.Spec.gate (F := Ideal) (m ((c.tc : Thread nD τ).loc main_arg0)) (m ((c.tc : Thread nD τ).loc main_arg3)) (m ((c.tc : Thread nD τ).loc main_arg5)) := by
  refine (W2_arr m ρ c 4).trans ((Blocks.final0_4 (V1 m ρ) c).trans ?_)
  show Cert.ReferenceIdeal.Spec.gate (F := Ideal) (V1 m ρ c main_arg0) (V1 m ρ c main_arg3) (V1 m ρ c main_arg5) = _
  rw [V1_arg0, V1_arg3, V1_arg5]

theorem W2_v1 (c : Dev nD) : W2 m ρ c (Proc.devRef .tc main_v1) = Cert.ReferenceIdeal.Spec.rowsOf (m ((c.tc : Thread nD τ).loc main_arg1)) :=
  (W2_of_ne m ρ c main_v1 (by decide)).trans ((Mid.pre_rows (W0 m ρ c)).trans rfl)
theorem W2_v3 (c : Dev nD) : W2 m ρ c (Proc.devRef .tc main_v3) = Cert.ReferenceIdeal.Spec.colsOf (m ((c.tc : Thread nD τ).loc main_arg1)) :=
  (W2_of_ne m ρ c main_v3 (by decide)).trans ((Mid.pre_cols (W0 m ρ c)).trans rfl)
theorem W2_arg2 (c : Dev nD) : W2 m ρ c (Proc.devRef .tc main_arg2) = m ((c.tc : Thread nD τ).loc main_arg2) :=
  (W2_of_ne m ρ c main_arg2 (by decide)).trans ((Mid.pre_arg2 (W0 m ρ c)).trans rfl)
theorem W2_arg4 (c : Dev nD) : W2 m ρ c (Proc.devRef .tc main_arg4) = m ((c.tc : Thread nD τ).loc main_arg4) :=
  (W2_of_ne m ρ c main_arg4 (by decide)).trans ((Mid.pre_arg4 (W0 m ρ c)).trans rfl)

/-- At the second launch's entry: the two aggregates and `a1`. -/
theorem V3_v17 (c : Dev nD) : V3 m ρ c main_v17
    = Cert.ReferenceIdeal.Spec.raw (F := Ideal)
        (Cert.ReferenceIdeal.Spec.gated (F := Ideal) (m ((c.tc : Thread nD τ).loc main_arg0)) (m ((c.tc : Thread nD τ).loc main_arg3)) (m ((c.tc : Thread nD τ).loc main_arg5)))
        (Cert.ReferenceIdeal.Spec.rowsOf (m ((c.tc : Thread nD τ).loc main_arg1))) (Cert.ReferenceIdeal.Spec.colsOf (m ((c.tc : Thread nD τ).loc main_arg1)))
        (m ((c.tc : Thread nD τ).loc main_arg2)) := by
  refine (Mid.mid_raw (W2 m ρ c)).trans ?_
  rw [W2_v4_0, W2_v1, W2_v3, W2_arg2]

theorem V3_v33 (c : Dev nD) : V3 m ρ c main_v33
    = Cert.ReferenceIdeal.Spec.norm (F := Ideal)
        (Cert.ReferenceIdeal.Spec.gate (F := Ideal) (m ((c.tc : Thread nD τ).loc main_arg0)) (m ((c.tc : Thread nD τ).loc main_arg3)) (m ((c.tc : Thread nD τ).loc main_arg5)))
        (Cert.ReferenceIdeal.Spec.rowsOf (m ((c.tc : Thread nD τ).loc main_arg1))) (Cert.ReferenceIdeal.Spec.colsOf (m ((c.tc : Thread nD τ).loc main_arg1)))
        (m ((c.tc : Thread nD τ).loc main_arg2)) := by
  refine (Mid.mid_norm (W2 m ρ c)).trans ?_
  rw [W2_v4_1, W2_v1, W2_v3, W2_arg2]

theorem V3_arg4 (c : Dev nD) : V3 m ρ c main_arg4 = m ((c.tc : Thread nD τ).loc main_arg4) :=
  (Mid.mid_arg4 (W2 m ρ c)).trans (W2_arg4 m ρ c)

/-- The result array at the last boundary is the reference's function of the arguments as launched. -/
theorem result_eq (c : Dev nD) : W4 m ρ c (Proc.devRef .tc main_v34)
    = Cert.ReferenceIdeal.Spec.out (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) := by
  refine (W4_arr m ρ c 3).trans ((Blocks1.final1_3 (V3 m ρ) c).trans ?_)
  show Cert.ReferenceIdeal.Spec.final (F := Ideal) (V3 m ρ c main_v17) (V3 m ρ c main_v33) (V3 m ρ c main_arg4) = _
  rw [V3_v17, V3_v33, V3_arg4]
  rfl

/-- The run, read: the result buffer at the reference's function of the arguments, the arguments unchanged. -/
theorem run : θ_run defs (onTc (τ := τ) (main (F := Ideal))) ⟨m, fun _ => 0, ρ⟩ (fun r => ∀ c : Dev nD,
      r.2.mem ((c.tc : Thread nD τ).loc main_v34)
        = Cert.ReferenceIdeal.Spec.out (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (KRun.run m ρ)

end Cert.KernelIdeal.KValue

end
-- ==== Proof.RefRun.lean ====
/-
  The reference program's run, read back.

  The program is a straight line of host operations once its outlined functions are unfolded at their calls (softplus at
  the first call; elu at the second, itself calling the two selects `_where` and `_where_0`): ninety-three operations,
  each writing one buffer of its own.  `ops` lists them in the program's order, `main_eq` says the program is that
  line, and `run` reads the fold of their results back at the result buffer: it is the composition `Spec.out` of the
  six arguments' launch contents, and the six arguments are unchanged.
-/
import proofs.«101418_j21045339750531_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's ninety-three operations, in order, the calls unfolded: the fifty-nine up to the product `out · a1`,
    softplus's fourteen over the first call's buffers, the ten that form `max(out, 0) + l ⊙ min(out, 0)`, then elu's
    fifteen over the second call's buffers — its first select's three (the zero converted to its own type, broadcast,
    the select) after the second comparison, its second select last. -/
abbrev ops : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg3 main_v4 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v4 main_arg5 main_v5 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_v5 main_v6 (Host.negf : (⟨S50000x1, .f32⟩ : BufTy).Contents (Elt F) → (⟨S50000x1, .f32⟩ : BufTy).Contents (Elt F)),
    StableHlo.unary main_v6 main_v7 (Host.exp : (⟨S50000x1, .f32⟩ : BufTy).Contents (Elt F) → (⟨S50000x1, .f32⟩ : BufTy).Contents (Elt F)),
    StableHlo.nullary main_cst (constant S_ .f32 0x3F800000#32),
    StableHlo.unary main_cst main_v8 (broadcastInDim S50000x1 ![] bcast_S_S50000x1 : (⟨S_, .f32⟩ : BufTy).Contents (Elt F) → (⟨S50000x1, .f32⟩ : BufTy).Contents (Elt F)),
    StableHlo.binary main_v8 main_v7 main_v9 (addf : (⟨S50000x1, .f32⟩ : BufTy).Contents (Elt F) → (⟨S50000x1, .f32⟩ : BufTy).Contents (Elt F) → (⟨S50000x1, .f32⟩ : BufTy).Contents (Elt F)),
    StableHlo.nullary main_cst_0 (constant S_ .f32 0x3F800000#32),
    StableHlo.unary main_cst_0 main_v10 (broadcastInDim S50000x1 ![] bcast_S_S50000x1 : (⟨S_, .f32⟩ : BufTy).Contents (Elt F) → (⟨S50000x1, .f32⟩ : BufTy).Contents (Elt F)),
    StableHlo.binary main_v10 main_v9 main_v11 (Host.divf : (⟨S50000x1, .f32⟩ : BufTy).Contents (Elt F) → (⟨S50000x1, .f32⟩ : BufTy).Contents (Elt F) → (⟨S50000x1, .f32⟩ : BufTy).Contents (Elt F)),
    StableHlo.unary main_v11 main_v12 (broadcastInDim S50000x256 ![0, 1] bcast_S50000x1_S50000x256_0_1 : (⟨S50000x1, .f32⟩ : BufTy).Contents (Elt F) → (⟨S50000x256, .f32⟩ : BufTy).Contents (Elt F)),
    StableHlo.binary main_v12 main_v4 main_v13 (mulf : (⟨S50000x256, .f32⟩ : BufTy).Contents (Elt F) → (⟨S50000x256, .f32⟩ : BufTy).Contents (Elt F) → (⟨S50000x256, .f32⟩ : BufTy).Contents (Elt F)),
    StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v3 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v16 (broadcastInDim S800000 ![] bcast_S_S800000 : (⟨S_, .i32⟩ : BufTy).Contents (Elt F) → (⟨S800000, .i32⟩ : BufTy).Contents (Elt F)),
    StableHlo.binary main_v3 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v3 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v13 main_v19 main_v20 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_arg2 main_v21 (broadcastInDim S800000x1 ![0] bcast_S800000_S800000x1_0 : (⟨S800000, .f32⟩ : BufTy).Contents (Elt F) → (⟨S800000x1, .f32⟩ : BufTy).Contents (Elt F)),
    StableHlo.unary main_v21 main_v22 (broadcastInDim S800000x256 ![0, 1] bcast_S800000x1_S800000x256_0_1 : (⟨S800000x1, .f32⟩ : BufTy).Contents (Elt F) → (⟨S800000x256, .f32⟩ : BufTy).Contents (Elt F)),
    StableHlo.binary main_v20 main_v22 main_v23 (mulf : (⟨S800000x256, .f32⟩ : BufTy).Contents (Elt F) → (⟨S800000x256, .f32⟩ : BufTy).Contents (Elt F) → (⟨S800000x256, .f32⟩ : BufTy).Contents (Elt F)),
    StableHlo.nullary main_cst_2 (constant S_ .f32 0x00000000#32),
    StableHlo.unary main_cst_2 main_v24 (broadcastInDim S50000x256 ![] bcast_S_S50000x256 : (⟨S_, .f32⟩ : BufTy).Contents (Elt F) → (⟨S50000x256, .f32⟩ : BufTy).Contents (Elt F)),
    StableHlo.unary main_v1 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_c_3 (constantI S_ 32 0#32),
    StableHlo.unary main_c_3 main_v27 (broadcastInDim S800000 ![] bcast_S_S800000 : (⟨S_, .i32⟩ : BufTy).Contents (Elt F) → (⟨S800000, .i32⟩ : BufTy).Contents (Elt F)),
    StableHlo.binary main_v3 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v29 (broadcastInDim S800000 ![] bcast_S_S800000 : (⟨S_, .i32⟩ : BufTy).Contents (Elt F) → (⟨S800000, .i32⟩ : BufTy).Contents (Elt F)),
    StableHlo.binary main_v3 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.nullary main_c_5 (constantI S_ 32 0#32),
    StableHlo.unary main_c_5 main_v32 (broadcastInDim S800000 ![] bcast_S_S800000 : (⟨S_, .i32⟩ : BufTy).Contents (Elt F) → (⟨S800000, .i32⟩ : BufTy).Contents (Elt F)),
    StableHlo.unary main_v32 main_v33 (id : (⟨S800000, .i32⟩ : BufTy).Contents (Elt F) → (⟨S800000, .i32⟩ : BufTy).Contents (Elt F)),
    StableHlo.unary main_v31 main_v34 (broadcastInDim S800000x1 ![0] bcast_S800000_S800000x1_0 : (⟨S800000, .i32⟩ : BufTy).Contents (Elt F) → (⟨S800000x1, .i32⟩ : BufTy).Contents (Elt F)),
    StableHlo.unary main_v33 main_v35 (broadcastInDim S800000x1 ![0] bcast_S800000_S800000x1_0 : (⟨S800000, .i32⟩ : BufTy).Contents (Elt F) → (⟨S800000x1, .i32⟩ : BufTy).Contents (Elt F)),
    StableHlo.binary main_v34 main_v35 main_v36 ((fun a b => concatenate S800000x2 1 [⟨S800000x1, a⟩, ⟨S800000x1, b⟩] concatenates_S800000x1_S800000x1_S800000x2_d1) : (⟨S800000x1, .i32⟩ : BufTy).Contents (Elt F) → (⟨S800000x1, .i32⟩ : BufTy).Contents (Elt F) → (⟨S800000x2, .i32⟩ : BufTy).Contents (Elt F)),
    StableHlo.binary main_v11 main_v36 main_v37 ((fun x i => Host.gather gather_S50000x1_S800000x2_S800000_n_01_n_n_01_1_11 x i) : (⟨S50000x1, .f32⟩ : BufTy).Contents (Elt F) → (⟨S800000x2, .i32⟩ : BufTy).Contents (Elt F) → (⟨S800000, .f32⟩ : BufTy).Contents (Elt F)),
    StableHlo.binary main_arg2 main_v37 main_v38 (mulf : (⟨S800000, .f32⟩ : BufTy).Contents (Elt F) → (⟨S800000, .f32⟩ : BufTy).Contents (Elt F) → (⟨S800000, .f32⟩ : BufTy).Contents (Elt F)),
    StableHlo.nullary main_cst_6 (constant S_ .f32 0x00000000#32),
    StableHlo.unary main_cst_6 main_v39 (broadcastInDim S50000 ![] bcast_S_S50000 : (⟨S_, .f32⟩ : BufTy).Contents (Elt F) → (⟨S50000, .f32⟩ : BufTy).Contents (Elt F)),
    StableHlo.unary main_v1 main_v40 (broadcastInDim S800000x1 ![0] bcast_S800000_S800000x1_0 : (⟨S800000, .i32⟩ : BufTy).Contents (Elt F) → (⟨S800000x1, .i32⟩ : BufTy).Contents (Elt F)),
    StableHlo.ternary main_v39 main_v40 main_v38 main_v41 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.unary main_v41 main_v42 (broadcastInDim S50000x1 ![0] bcast_S50000_S50000x1_0 : (⟨S50000, .f32⟩ : BufTy).Contents (Elt F) → (⟨S50000x1, .f32⟩ : BufTy).Contents (Elt F)),
    StableHlo.unary main_v42 main_v43 (broadcastInDim S50000x256 ![0, 1] bcast_S50000x1_S50000x256_0_1 : (⟨S50000x1, .f32⟩ : BufTy).Contents (Elt F) → (⟨S50000x256, .f32⟩ : BufTy).Contents (Elt F)),
    StableHlo.binary main_v26 main_v43 main_v44 (Host.divf : (⟨S50000x256, .f32⟩ : BufTy).Contents (Elt F) → (⟨S50000x256, .f32⟩ : BufTy).Contents (Elt F) → (⟨S50000x256, .f32⟩ : BufTy).Contents (Elt F)),
    StableHlo.binary main_v44 main_arg4 main_v45 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.TRef.nullary main_call0.cst (constant S_ .f32 0x00000000#32),
    StableHlo.TRef.unary main_call0.cst main_call0.v0 (broadcastInDim S50000x1 ![] bcast_S_S50000x1),
    StableHlo.TRef.binary (.of main_v45 : StableHlo.TRef sig ⟨S50000x1, .f32⟩) main_call0.v0 main_call0.v1 maximumf,
    StableHlo.TRef.unary main_call0.cst main_call0.v2 (broadcastInDim S50000x1 ![] bcast_S_S50000x1),
    StableHlo.TRef.binary (.of main_v45 : StableHlo.TRef sig ⟨S50000x1, .f32⟩) main_call0.v2 main_call0.v3 subf,
    StableHlo.TRef.binary main_call0.v3 main_call0.v3 main_call0.v4 (cmpf .une),
    StableHlo.TRef.unary main_call0.cst main_call0.v5 (broadcastInDim S50000x1 ![] bcast_S_S50000x1),
    StableHlo.TRef.binary (.of main_v45 : StableHlo.TRef sig ⟨S50000x1, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.nullary main_cst_7 (constant S_ .f32 0x00000000#32),
    StableHlo.unary main_cst_7 main_v47 (broadcastInDim S50000x256 ![] bcast_S_S50000x256 : (⟨S_, .f32⟩ : BufTy).Contents (Elt F) → (⟨S50000x256, .f32⟩ : BufTy).Contents (Elt F)),
    StableHlo.binary main_v44 main_v47 main_v48 (maximumf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x00000000#32),
    StableHlo.unary main_cst_8 main_v49 (broadcastInDim S50000x256 ![] bcast_S_S50000x256 : (⟨S_, .f32⟩ : BufTy).Contents (Elt F) → (⟨S50000x256, .f32⟩ : BufTy).Contents (Elt F)),
    StableHlo.binary main_v44 main_v49 main_v50 (minimumf : (⟨S50000x256, .f32⟩ : BufTy).Contents (Elt F) → (⟨S50000x256, .f32⟩ : BufTy).Contents (Elt F) → (⟨S50000x256, .f32⟩ : BufTy).Contents (Elt F)),
    StableHlo.unary main_v46 main_v51 (broadcastInDim S50000x256 ![0, 1] bcast_S50000x1_S50000x256_0_1 : (⟨S50000x1, .f32⟩ : BufTy).Contents (Elt F) → (⟨S50000x256, .f32⟩ : BufTy).Contents (Elt F)),
    StableHlo.binary main_v51 main_v50 main_v52 (mulf : (⟨S50000x256, .f32⟩ : BufTy).Contents (Elt F) → (⟨S50000x256, .f32⟩ : BufTy).Contents (Elt F) → (⟨S50000x256, .f32⟩ : BufTy).Contents (Elt F)),
    StableHlo.binary main_v48 main_v52 main_v53 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v53 : StableHlo.TRef sig ⟨S50000x256, .f32⟩) main_call1.v0 main_call1.v1 (cmpf .ogt),
    StableHlo.TRef.nullary main_call1.cst_0 (constant S_ .f32 0x00000000#32),
    StableHlo.TRef.unary main_call1.cst_0 main_call1.v2 (broadcastInDim S50000x256 ![] bcast_S_S50000x256),
    StableHlo.TRef.binary (.of main_v53 : StableHlo.TRef sig ⟨S50000x256, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x256 ![] bcast_S_S50000x256),
    StableHlo.TRef.ternary main_call1.v3 main_call1.call0.v1 (.of main_v53 : StableHlo.TRef sig ⟨S50000x256, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x256 ![] bcast_S_S50000x256),
    StableHlo.TRef.binary main_call1.v6 main_call1.v5 main_call1.v7 mulf,
    StableHlo.TRef.ternary main_call1.v1 (.of main_v53 : StableHlo.TRef sig ⟨S50000x256, .f32⟩) main_call1.v7 main_call1.call1.v0 select ]

-- ninety-three binds re-associated: the rewrite under the chain recurses once per statement
set_option maxRecDepth 16384 in
set_option maxHeartbeats 4000000 in
/-- The program is that straight line: the functions' definitions unfolded at their calls and the records at their
    fields, both sides are one chain of steps once sequencing is re-associated. -/
theorem main_eq (c : Dev nD) : main (F := F) c = seq ops := by
  simp only [main, main_part0, main_part1, fn_softplus.body, fn_elu.body, fn_where.body, fn_where_0.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    unary_bufs_sub .., reshape_bufs_sub .., unary_bufs_sub .., reshape_bufs_sub .., binary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., unary_bufs_sub ..,
    unary_bufs_sub .., unary_bufs_sub .., binary_bufs_sub .., binary_bufs_sub .., binary_bufs_sub .., nullary_bufs_sub ..,
    unary_bufs_sub .., unary_bufs_sub .., ternary_bufs_sub .., unary_bufs_sub .., unary_bufs_sub .., binary_bufs_sub ..,
    binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., nullary_bufs_sub .., unary_bufs_sub .., binary_bufs_sub ..,
    nullary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-! ## The line in four stretches

The fold of the whole line at the result, written out, repeats the normalised aggregate under every use of it; read
in four consecutive stretches over a VARIABLE valuation, each stretch's results are one stage of `Spec` applied to
the contents the stretch starts from, and the stages compose. -/

/-- The first sixteen operations: the edges' rows and columns, `x · W`, the gate, the gated features. -/
abbrev ops1 : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg3 main_v4 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.binary main_v4 main_arg5 main_v5 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_v5 main_v6 (Host.negf : (⟨S50000x1, .f32⟩ : BufTy).Contents (Elt F) → (⟨S50000x1, .f32⟩ : BufTy).Contents (Elt F)),
    StableHlo.unary main_v6 main_v7 (Host.exp : (⟨S50000x1, .f32⟩ : BufTy).Contents (Elt F) → (⟨S50000x1, .f32⟩ : BufTy).Contents (Elt F)),
    StableHlo.nullary main_cst (constant S_ .f32 0x3F800000#32),
    StableHlo.unary main_cst main_v8 (broadcastInDim S50000x1 ![] bcast_S_S50000x1 : (⟨S_, .f32⟩ : BufTy).Contents (Elt F) → (⟨S50000x1, .f32⟩ : BufTy).Contents (Elt F)),
    StableHlo.binary main_v8 main_v7 main_v9 (addf : (⟨S50000x1, .f32⟩ : BufTy).Contents (Elt F) → (⟨S50000x1, .f32⟩ : BufTy).Contents (Elt F) → (⟨S50000x1, .f32⟩ : BufTy).Contents (Elt F)),
    StableHlo.nullary main_cst_0 (constant S_ .f32 0x3F800000#32),
    StableHlo.unary main_cst_0 main_v10 (broadcastInDim S50000x1 ![] bcast_S_S50000x1 : (⟨S_, .f32⟩ : BufTy).Contents (Elt F) → (⟨S50000x1, .f32⟩ : BufTy).Contents (Elt F)),
    StableHlo.binary main_v10 main_v9 main_v11 (Host.divf : (⟨S50000x1, .f32⟩ : BufTy).Contents (Elt F) → (⟨S50000x1, .f32⟩ : BufTy).Contents (Elt F) → (⟨S50000x1, .f32⟩ : BufTy).Contents (Elt F)),
    StableHlo.unary main_v11 main_v12 (broadcastInDim S50000x256 ![0, 1] bcast_S50000x1_S50000x256_0_1 : (⟨S50000x1, .f32⟩ : BufTy).Contents (Elt F) → (⟨S50000x256, .f32⟩ : BufTy).Contents (Elt F)),
    StableHlo.binary main_v12 main_v4 main_v13 (mulf : (⟨S50000x256, .f32⟩ : BufTy).Contents (Elt F) → (⟨S50000x256, .f32⟩ : BufTy).Contents (Elt F) → (⟨S50000x256, .f32⟩ : BufTy).Contents (Elt F)) ]

/-- The next thirty-six: the two weighted aggregations over the edges, the second as a column. -/
abbrev ops2 : List (HloOp τ sig (Elt F)) :=
  [
    StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v3 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v16 (broadcastInDim S800000 ![] bcast_S_S800000 : (⟨S_, .i32⟩ : BufTy).Contents (Elt F) → (⟨S800000, .i32⟩ : BufTy).Contents (Elt F)),
    StableHlo.binary main_v3 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v3 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_v13 main_v19 main_v20 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_arg2 main_v21 (broadcastInDim S800000x1 ![0] bcast_S800000_S800000x1_0 : (⟨S800000, .f32⟩ : BufTy).Contents (Elt F) → (⟨S800000x1, .f32⟩ : BufTy).Contents (Elt F)),
    StableHlo.unary main_v21 main_v22 (broadcastInDim S800000x256 ![0, 1] bcast_S800000x1_S800000x256_0_1 : (⟨S800000x1, .f32⟩ : BufTy).Contents (Elt F) → (⟨S800000x256, .f32⟩ : BufTy).Contents (Elt F)),
    StableHlo.binary main_v20 main_v22 main_v23 (mulf : (⟨S800000x256, .f32⟩ : BufTy).Contents (Elt F) → (⟨S800000x256, .f32⟩ : BufTy).Contents (Elt F) → (⟨S800000x256, .f32⟩ : BufTy).Contents (Elt F)),
    StableHlo.nullary main_cst_2 (constant S_ .f32 0x00000000#32),
    StableHlo.unary main_cst_2 main_v24 (broadcastInDim S50000x256 ![] bcast_S_S50000x256 : (⟨S_, .f32⟩ : BufTy).Contents (Elt F) → (⟨S50000x256, .f32⟩ : BufTy).Contents (Elt F)),
    StableHlo.unary main_v1 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_c_3 (constantI S_ 32 0#32),
    StableHlo.unary main_c_3 main_v27 (broadcastInDim S800000 ![] bcast_S_S800000 : (⟨S_, .i32⟩ : BufTy).Contents (Elt F) → (⟨S800000, .i32⟩ : BufTy).Contents (Elt F)),
    StableHlo.binary main_v3 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v29 (broadcastInDim S800000 ![] bcast_S_S800000 : (⟨S_, .i32⟩ : BufTy).Contents (Elt F) → (⟨S800000, .i32⟩ : BufTy).Contents (Elt F)),
    StableHlo.binary main_v3 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.nullary main_c_5 (constantI S_ 32 0#32),
    StableHlo.unary main_c_5 main_v32 (broadcastInDim S800000 ![] bcast_S_S800000 : (⟨S_, .i32⟩ : BufTy).Contents (Elt F) → (⟨S800000, .i32⟩ : BufTy).Contents (Elt F)),
    StableHlo.unary main_v32 main_v33 (id : (⟨S800000, .i32⟩ : BufTy).Contents (Elt F) → (⟨S800000, .i32⟩ : BufTy).Contents (Elt F)),
    StableHlo.unary main_v31 main_v34 (broadcastInDim S800000x1 ![0] bcast_S800000_S800000x1_0 : (⟨S800000, .i32⟩ : BufTy).Contents (Elt F) → (⟨S800000x1, .i32⟩ : BufTy).Contents (Elt F)),
    StableHlo.unary main_v33 main_v35 (broadcastInDim S800000x1 ![0] bcast_S800000_S800000x1_0 : (⟨S800000, .i32⟩ : BufTy).Contents (Elt F) → (⟨S800000x1, .i32⟩ : BufTy).Contents (Elt F)),
    StableHlo.binary main_v34 main_v35 main_v36 ((fun a b => concatenate S800000x2 1 [⟨S800000x1, a⟩, ⟨S800000x1, b⟩] concatenates_S800000x1_S800000x1_S800000x2_d1) : (⟨S800000x1, .i32⟩ : BufTy).Contents (Elt F) → (⟨S800000x1, .i32⟩ : BufTy).Contents (Elt F) → (⟨S800000x2, .i32⟩ : BufTy).Contents (Elt F)),
    StableHlo.binary main_v11 main_v36 main_v37 ((fun x i => Host.gather gather_S50000x1_S800000x2_S800000_n_01_n_n_01_1_11 x i) : (⟨S50000x1, .f32⟩ : BufTy).Contents (Elt F) → (⟨S800000x2, .i32⟩ : BufTy).Contents (Elt F) → (⟨S800000, .f32⟩ : BufTy).Contents (Elt F)),
    StableHlo.binary main_arg2 main_v37 main_v38 (mulf : (⟨S800000, .f32⟩ : BufTy).Contents (Elt F) → (⟨S800000, .f32⟩ : BufTy).Contents (Elt F) → (⟨S800000, .f32⟩ : BufTy).Contents (Elt F)),
    StableHlo.nullary main_cst_6 (constant S_ .f32 0x00000000#32),
    StableHlo.unary main_cst_6 main_v39 (broadcastInDim S50000 ![] bcast_S_S50000 : (⟨S_, .f32⟩ : BufTy).Contents (Elt F) → (⟨S50000, .f32⟩ : BufTy).Contents (Elt F)),
    StableHlo.unary main_v1 main_v40 (broadcastInDim S800000x1 ![0] bcast_S800000_S800000x1_0 : (⟨S800000, .i32⟩ : BufTy).Contents (Elt F) → (⟨S800000x1, .i32⟩ : BufTy).Contents (Elt F)),
    StableHlo.ternary main_v39 main_v40 main_v38 main_v41 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.unary main_v41 main_v42 (broadcastInDim S50000x1 ![0] bcast_S50000_S50000x1_0 : (⟨S50000, .f32⟩ : BufTy).Contents (Elt F) → (⟨S50000x1, .f32⟩ : BufTy).Contents (Elt F)) ]

/-- The next twenty-six: the quotient, softplus of its product with `a1`, and `max(out, 0) + l ⊙ min(out, 0)`. -/
abbrev ops3 : List (HloOp τ sig (Elt F)) :=
  [
    StableHlo.unary main_v42 main_v43 (broadcastInDim S50000x256 ![0, 1] bcast_S50000x1_S50000x256_0_1 : (⟨S50000x1, .f32⟩ : BufTy).Contents (Elt F) → (⟨S50000x256, .f32⟩ : BufTy).Contents (Elt F)),
    StableHlo.binary main_v26 main_v43 main_v44 (Host.divf : (⟨S50000x256, .f32⟩ : BufTy).Contents (Elt F) → (⟨S50000x256, .f32⟩ : BufTy).Contents (Elt F) → (⟨S50000x256, .f32⟩ : BufTy).Contents (Elt F)),
    StableHlo.binary main_v44 main_arg4 main_v45 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.TRef.nullary main_call0.cst (constant S_ .f32 0x00000000#32),
    StableHlo.TRef.unary main_call0.cst main_call0.v0 (broadcastInDim S50000x1 ![] bcast_S_S50000x1),
    StableHlo.TRef.binary (.of main_v45 : StableHlo.TRef sig ⟨S50000x1, .f32⟩) main_call0.v0 main_call0.v1 maximumf,
    StableHlo.TRef.unary main_call0.cst main_call0.v2 (broadcastInDim S50000x1 ![] bcast_S_S50000x1),
    StableHlo.TRef.binary (.of main_v45 : StableHlo.TRef sig ⟨S50000x1, .f32⟩) main_call0.v2 main_call0.v3 subf,
    StableHlo.TRef.binary main_call0.v3 main_call0.v3 main_call0.v4 (cmpf .une),
    StableHlo.TRef.unary main_call0.cst main_call0.v5 (broadcastInDim S50000x1 ![] bcast_S_S50000x1),
    StableHlo.TRef.binary (.of main_v45 : StableHlo.TRef sig ⟨S50000x1, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.nullary main_cst_7 (constant S_ .f32 0x00000000#32),
    StableHlo.unary main_cst_7 main_v47 (broadcastInDim S50000x256 ![] bcast_S_S50000x256 : (⟨S_, .f32⟩ : BufTy).Contents (Elt F) → (⟨S50000x256, .f32⟩ : BufTy).Contents (Elt F)),
    StableHlo.binary main_v44 main_v47 main_v48 (maximumf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x00000000#32),
    StableHlo.unary main_cst_8 main_v49 (broadcastInDim S50000x256 ![] bcast_S_S50000x256 : (⟨S_, .f32⟩ : BufTy).Contents (Elt F) → (⟨S50000x256, .f32⟩ : BufTy).Contents (Elt F)),
    StableHlo.binary main_v44 main_v49 main_v50 (minimumf : (⟨S50000x256, .f32⟩ : BufTy).Contents (Elt F) → (⟨S50000x256, .f32⟩ : BufTy).Contents (Elt F) → (⟨S50000x256, .f32⟩ : BufTy).Contents (Elt F)),
    StableHlo.unary main_v46 main_v51 (broadcastInDim S50000x256 ![0, 1] bcast_S50000x1_S50000x256_0_1 : (⟨S50000x1, .f32⟩ : BufTy).Contents (Elt F) → (⟨S50000x256, .f32⟩ : BufTy).Contents (Elt F)),
    StableHlo.binary main_v51 main_v50 main_v52 (mulf : (⟨S50000x256, .f32⟩ : BufTy).Contents (Elt F) → (⟨S50000x256, .f32⟩ : BufTy).Contents (Elt F) → (⟨S50000x256, .f32⟩ : BufTy).Contents (Elt F)),
    StableHlo.binary main_v48 main_v52 main_v53 (addf : (⟨S50000x256, .f32⟩ : BufTy).Contents (Elt F) → (⟨S50000x256, .f32⟩ : BufTy).Contents (Elt F) → (⟨S50000x256, .f32⟩ : BufTy).Contents (Elt F)) ]

/-- The last fifteen: elu. -/
abbrev ops4 : List (HloOp τ sig (Elt F)) :=
  [
    StableHlo.TRef.nullary main_call1.cst (constant S_ .f32 0x00000000#32),
    StableHlo.TRef.unary main_call1.cst main_call1.v0 (broadcastInDim S50000x256 ![] bcast_S_S50000x256),
    StableHlo.TRef.binary (.of main_v53 : StableHlo.TRef sig ⟨S50000x256, .f32⟩) main_call1.v0 main_call1.v1 (cmpf .ogt),
    StableHlo.TRef.nullary main_call1.cst_0 (constant S_ .f32 0x00000000#32),
    StableHlo.TRef.unary main_call1.cst_0 main_call1.v2 (broadcastInDim S50000x256 ![] bcast_S_S50000x256),
    StableHlo.TRef.binary (.of main_v53 : StableHlo.TRef sig ⟨S50000x256, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x256 ![] bcast_S_S50000x256),
    StableHlo.TRef.ternary main_call1.v3 main_call1.call0.v1 (.of main_v53 : StableHlo.TRef sig ⟨S50000x256, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x256 ![] bcast_S_S50000x256),
    StableHlo.TRef.binary main_call1.v6 main_call1.v5 main_call1.v7 mulf,
    StableHlo.TRef.ternary main_call1.v1 (.of main_v53 : StableHlo.TRef sig ⟨S50000x256, .f32⟩) main_call1.v7 main_call1.call1.v0 select ]

/-- The line is its four stretches, one after the other. -/
theorem ops_split : (ops : List (HloOp τ sig (Elt F))) = ops1 ++ (ops2 ++ (ops3 ++ ops4)) := rfl

/-- The fold over two lines run one after the other is the second's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih =>
    simp only [List.cons_append, after_cons]
    exact ih _

/-! ### Stage one -/

attribute [local irreducible] Host.gather Host.scatterAdd in
set_option maxRecDepth 16384 in
set_option maxHeartbeats 1000000 in
/-- After the first stretch the gated features are `Spec.gated` of `x`, `W`, `a2`. -/
theorem s1_gated (W : Valuation τ sig (Elt F)) :
    after ops1 W (main_v13 : DevRef τ sig) = Spec.gated (W (main_arg0 : DevRef τ sig)) (W (main_arg3 : DevRef τ sig)) (W (main_arg5 : DevRef τ sig)) := by
  after_results_simp
  rfl

attribute [local irreducible] Host.gather Host.scatterAdd in
set_option maxRecDepth 16384 in
set_option maxHeartbeats 1000000 in
/-- … and the gate is `Spec.gate` of the same. -/
theorem s1_gate (W : Valuation τ sig (Elt F)) :
    after ops1 W (main_v11 : DevRef τ sig) = Spec.gate (W (main_arg0 : DevRef τ sig)) (W (main_arg3 : DevRef τ sig)) (W (main_arg5 : DevRef τ sig)) := by
  after_results_simp
  rfl

attribute [local irreducible] Host.gather Host.scatterAdd in
set_option maxRecDepth 16384 in
set_option maxHeartbeats 1000000 in
/-- … the rows are `Spec.rowsOf` of the index pairs. -/
theorem s1_rows (W : Valuation τ sig (Elt F)) :
    after ops1 W (main_v1 : DevRef τ sig) = Spec.rowsOf (W (main_arg1 : DevRef τ sig)) := by
  after_results_simp
  rfl

attribute [local irreducible] Host.gather Host.scatterAdd in
set_option maxRecDepth 16384 in
set_option maxHeartbeats 1000000 in
/-- … the columns are `Spec.colsOf` of the index pairs. -/
theorem s1_cols (W : Valuation τ sig (Elt F)) :
    after ops1 W (main_v3 : DevRef τ sig) = Spec.colsOf (W (main_arg1 : DevRef τ sig)) := by
  after_results_simp
  rfl

theorem s1_arg2 (W : Valuation τ sig (Elt F)) :
    after ops1 W (main_arg2 : DevRef τ sig) = W (main_arg2 : DevRef τ sig) := by
  after_results_simp

theorem s1_arg4 (W : Valuation τ sig (Elt F)) :
    after ops1 W (main_arg4 : DevRef τ sig) = W (main_arg4 : DevRef τ sig) := by
  after_results_simp

/-! ### Stage two -/

attribute [local irreducible] Host.gather Host.scatterAdd in
set_option maxRecDepth 16384 in
set_option maxHeartbeats 1000000 in
/-- After the second stretch the feature aggregate is `Spec.raw` of the gated features, rows, columns and weights it started from. -/
theorem s2_raw (W : Valuation τ sig (Elt F)) :
    after ops2 W (main_v26 : DevRef τ sig) = Spec.raw (W (main_v13 : DevRef τ sig)) (W (main_v1 : DevRef τ sig)) (W (main_v3 : DevRef τ sig)) (W (main_arg2 : DevRef τ sig)) := by
  after_results_simp
  rfl

attribute [local irreducible] Host.gather Host.scatterAdd in
set_option maxRecDepth 16384 in
set_option maxHeartbeats 1000000 in
/-- … and the gate aggregate, as a column, is `Spec.norm` of the gate, rows, columns and weights. -/
theorem s2_norm (W : Valuation τ sig (Elt F)) :
    after ops2 W (main_v42 : DevRef τ sig) = Spec.norm (W (main_v11 : DevRef τ sig)) (W (main_v1 : DevRef τ sig)) (W (main_v3 : DevRef τ sig)) (W (main_arg2 : DevRef τ sig)) := by
  after_results_simp
  rfl

theorem s2_arg4 (W : Valuation τ sig (Elt F)) :
    after ops2 W (main_arg4 : DevRef τ sig) = W (main_arg4 : DevRef τ sig) := by
  after_results_simp

/-! ### Stage three -/

attribute [local irreducible] Host.gather Host.scatterAdd in
set_option maxRecDepth 16384 in
set_option maxHeartbeats 1000000 in
/-- After the third stretch: `Spec.piecewise` of the quotient of the two aggregates, and `a1`. -/
theorem s3_piecewise (W : Valuation τ sig (Elt F)) :
    after ops3 W (main_v53 : DevRef τ sig) = Spec.piecewise (Spec.quotient (W (main_v26 : DevRef τ sig)) (W (main_v42 : DevRef τ sig))) (W (main_arg4 : DevRef τ sig)) := by
  after_results_simp
  rfl

/-! ### Stage four -/

attribute [local irreducible] Host.gather Host.scatterAdd in
set_option maxRecDepth 16384 in
set_option maxHeartbeats 1000000 in
/-- After the last stretch: `Spec.elu` of what it started from. -/
theorem s4_elu (W : Valuation τ sig (Elt F)) :
    after ops4 W (main_v54 : DevRef τ sig) = Spec.elu (W (main_v53 : DevRef τ sig)) := by
  after_results_simp
  rfl

/-- The fold of the whole line at the result buffer is `Spec.out` of the six arguments' contents: the four stages
    composed. -/
theorem out_eq (V : Valuation τ sig (Elt F)) :
    after ops V (main_v54 : DevRef τ sig)
      = Spec.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, after_append, after_append, after_append, s4_elu, s3_piecewise, s2_raw, s2_norm, s2_arg4, s1_gated,
    s1_gate, s1_rows, s1_cols, s1_arg2, s1_arg4]
  rfl

/-! ## The arguments are not written -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-! ## The run -/

/-- On every device, for any float values, from any memory with zero counters: every weakly fair execution of the
    program terminates with the result buffer at `Spec.out` of the six arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = Cert.ReferenceIdeal.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v54).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.RefRun

end
-- ==== Proof.lean ====
/-
  The certificate's claims.

  The kernel program computes a graph attention layer in two launches with the sparse aggregation between them on the
  host; the reference computes it with host operations throughout. At the ideal instance the two are one function of
  the six arguments:
    * each launch works on blocks of 2000 rows, and an entry of a block's result depends only on the block's own row,
      which is a row of the whole array: the block-wise matrix products are rows of the whole products (the same sums
      over 256 terms), and the pointwise operations are the reference's;
    * the host aggregation between the launches is the reference's, operation for operation;
    * three spellings differ and denote one function on the extended reals: the logistic function against
      1 / (1 + exp (-z)); 0 - a against -a inside softplus; exp p - 1 against 1 · expm1 p inside elu.
  No law used needs finiteness, so the precondition is never opened. The idealization rewrote nothing, so the
  `preserves` claim is trivial. The frames of the two kernel programs are the generated ones; the reference's frame is
  its run with the result dropped.
-/
import proofs.«101418_j21045339750531_1_alg».proof.Defs
import proofs.«101418_j21045339750531_1_alg».proof.Proof.Gen.Kernel
import proofs.«101418_j21045339750531_1_alg».proof.Proof.Gen.Kernel.Skeleton
import proofs.«101418_j21045339750531_1_alg».proof.Proof.Gen.Kernel.Launch
import proofs.«101418_j21045339750531_1_alg».proof.Proof.Gen.Kernel.Points
import proofs.«101418_j21045339750531_1_alg».proof.Proof.Gen.Kernel.Frame
import proofs.«101418_j21045339750531_1_alg».proof.Proof.Gen.KernelIdeal
import proofs.«101418_j21045339750531_1_alg».proof.Proof.Gen.KernelIdeal.Skeleton
import proofs.«101418_j21045339750531_1_alg».proof.Proof.Gen.KernelIdeal.Launch
import proofs.«101418_j21045339750531_1_alg».proof.Proof.Gen.KernelIdeal.Points
import proofs.«101418_j21045339750531_1_alg».proof.Proof.Gen.KernelIdeal.Frame
import proofs.«101418_j21045339750531_1_alg».proof.Proof.Gen.ReferenceIdeal
import proofs.«101418_j21045339750531_1_alg».proof.Proof.Gen.Pre_finite_inputs
import proofs.«101418_j21045339750531_1_alg».proof.Proof.KValue
import proofs.«101418_j21045339750531_1_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs end with the reference's function of the (agreeing) arguments in their result buffers. -/
theorem algebraic : Cert.algebraic_KernelIdeal_ReferenceIdeal := by
  intro m ρ m' ρ' _ hagree
  refine ⟨fun c => Cert.ReferenceIdeal.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
